-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000 : Shape := ⟨1, ![800000]⟩
abbrev S50000x1x32 : Shape := ⟨3, ![50000, 1, 32]⟩
abbrev S800000x1x32 : Shape := ⟨3, ![800000, 1, 32]⟩
abbrev S32x32 : Shape := ⟨2, ![32, 32]⟩
abbrev S32 : Shape := ⟨1, ![32]⟩
abbrev S128x64 : Shape := ⟨2, ![128, 64]⟩
abbrev S128 : Shape := ⟨1, ![128]⟩
abbrev S128x128 : Shape := ⟨2, ![128, 128]⟩
abbrev S128x32 : Shape := ⟨2, ![128, 32]⟩
abbrev S8x256 : Shape := ⟨2, ![8, 256]⟩
abbrev S8 : Shape := ⟨1, ![8]⟩
abbrev S_ : Shape := ⟨0, ![]⟩

class Facts : Prop where
  bcast_S_S50000x1x32 : S_.BroadcastsInDim S50000x1x32 (![] : Fin 0 → Fin S50000x1x32.rank)
  reducesTo_S50000x1x32_S_d0_1_2 : S50000x1x32.ReducesTo [0, 1, 2] S_
  h_S_ : 0 < S_.numel
  bcast_S_S800000x1x32 : S_.BroadcastsInDim S800000x1x32 (![] : Fin 0 → Fin S800000x1x32.rank)
  reducesTo_S800000x1x32_S_d0_1_2 : S800000x1x32.ReducesTo [0, 1, 2] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x32 : S_.BroadcastsInDim S128x32 (![] : Fin 0 → Fin S128x32.rank)
  reducesTo_S128x32_S_d0_1 : S128x32.ReducesTo [0, 1] S_
  bcast_S_S8x256 : S_.BroadcastsInDim S8x256 (![] : Fin 0 → Fin S8x256.rank)
  reducesTo_S8x256_S_d0_1 : S8x256.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_arg13 : FVec F S8 .f32) (main_v48 : IVec S_ 1) (main_v49 : FVec F S8x256 .f32) (main_v50 : FVec F S8x256 .f32) : IVec S_ 1 :=
  let main_v51 : IVec S8x256 1 := cmpf .olt main_v49 main_v50
  let main_c_19 : IVec S_ 1 := constantI S_ 1 1#1
  let main_v52 : IVec S_ 1 := (fun x v => Host.reduce IntOp.andi x v reducesTo_S8x256_S_d0_1 h_S_) main_v51 main_c_19
  let main_v53 : IVec S_ 1 := andi main_v48 main_v52
  let main_v54 : FVec F S8 .f32 := Host.absf main_arg13
  let main_cst_20 : FVec F S_ .f32 := constant S_ .f32 0x7F800000#32
  let main_v55 : FVec F S8 .f32 := broadcastInDim S8 ![] bcast_S_S8 main_cst_20
  let main_v56 : IVec S8 1 := cmpf .olt main_v54 main_v55
  let main_c_21 : IVec S_ 1 := constantI S_ 1 1#1
  let main_v57 : IVec S_ 1 := (fun x v => Host.reduce IntOp.andi x v reducesTo_S8_S_d0 h_S_) main_v56 main_c_21
  let main_v58 : IVec S_ 1 := andi main_v53 main_v57
  main_v58

def fn_part2 {F : FTy → Type} [FloatOps F] (main_arg9 : FVec F S128 .f32) (main_arg10 : FVec F S128x32 .f32) (main_arg11 : FVec F S128 .f32) (main_arg12 : FVec F S8x256 .f32) (main_arg13 : FVec F S8 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x32 .f32 := Host.absf main_arg10
  let main_cst_14 : FVec F S_ .f32 := constant S_ .f32 0x7F800000#32
  let main_v40 : FVec F S128x32 .f32 := broadcastInDim S128x32 ![] bcast_S_S128x32 main_cst_14
  let main_v41 : IVec S128x32 1 := cmpf .olt main_v39 main_v40
  let main_c_15 : IVec S_ 1 := constantI S_ 1 1#1
  let main_v42 : IVec S_ 1 := (fun x v => Host.reduce IntOp.andi x v reducesTo_S128x32_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S8x256 .f32 := Host.absf main_arg12
  let main_cst_18 : FVec F S_ .f32 := constant S_ .f32 0x7F800000#32
  let main_v50 : FVec F S8x256 .f32 := broadcastInDim S8x256 ![] bcast_S_S8x256 main_cst_18
  fn_part3 (F := F) main_arg13 main_v48 main_v49 main_v50

def fn_part1 {F : FTy → Type} [FloatOps F] (main_arg6 : FVec F S128x64 .f32) (main_arg7 : FVec F S128 .f32) (main_arg8 : FVec F S128x128 .f32) (main_arg9 : FVec F S128 .f32) (main_arg10 : FVec F S128x32 .f32) (main_arg11 : FVec F S128 .f32) (main_arg12 : FVec F S8x256 .f32) (main_arg13 : FVec F S8 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : IVec S800000 32) (main_arg1 : IVec S800000 32) (main_arg2 : FVec F S50000x1x32 .f32) (main_arg3 : FVec F S800000x1x32 .f32) (main_arg4 : FVec F S32x32 .f32) (main_arg5 : FVec F S32 .f32) (main_arg6 : FVec F S128x64 .f32) (main_arg7 : FVec F S128 .f32) (main_arg8 : FVec F S128x128 .f32) (main_arg9 : FVec F S128 .f32) (main_arg10 : FVec F S128x32 .f32) (main_arg11 : FVec F S128 .f32) (main_arg12 : FVec F S8x256 .f32) (main_arg13 : FVec F S8 .f32) : IVec S_ 1 :=
  let main_v0 : FVec F S50000x1x32 .f32 := Host.absf main_arg2
  let main_cst : FVec F S_ .f32 := constant S_ .f32 0x7F800000#32
  let main_v1 : FVec F S50000x1x32 .f32 := broadcastInDim S50000x1x32 ![] bcast_S_S50000x1x32 main_cst
  let main_v2 : IVec S50000x1x32 1 := cmpf .olt main_v0 main_v1
  let main_c : IVec S_ 1 := constantI S_ 1 1#1
  let main_v3 : IVec S_ 1 := (fun x v => Host.reduce IntOp.andi x v reducesTo_S50000x1x32_S_d0_1_2 h_S_) main_v2 main_c
  let main_v4 : FVec F S800000x1x32 .f32 := Host.absf main_arg3
  let main_cst_0 : FVec F S_ .f32 := constant S_ .f32 0x7F800000#32
  let main_v5 : FVec F S800000x1x32 .f32 := broadcastInDim S800000x1x32 ![] bcast_S_S800000x1x32 main_cst_0
  let main_v6 : IVec S800000x1x32 1 := cmpf .olt main_v4 main_v5
  let main_c_1 : IVec S_ 1 := constantI S_ 1 1#1
  let main_v7 : IVec S_ 1 := (fun x v => Host.reduce IntOp.andi x v reducesTo_S800000x1x32_S_d0_1_2 h_S_) main_v6 main_c_1
  let main_v8 : IVec S_ 1 := andi main_v3 main_v7
  let main_v9 : FVec F S32x32 .f32 := Host.absf main_arg4
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_arg10 main_arg11 main_arg12 main_arg13 main_v13 main_v16
-- ==== Kernel.lean ====
abbrev S800000 : Shape := ⟨1, ![800000]⟩
abbrev S50000x1x32 : Shape := ⟨3, ![50000, 1, 32]⟩
abbrev S800000x1x32 : Shape := ⟨3, ![800000, 1, 32]⟩
abbrev S32x32 : Shape := ⟨2, ![32, 32]⟩
abbrev S32 : Shape := ⟨1, ![32]⟩
abbrev S128x64 : Shape := ⟨2, ![128, 64]⟩
abbrev S128 : Shape := ⟨1, ![128]⟩
abbrev S128x128 : Shape := ⟨2, ![128, 128]⟩
abbrev S128x32 : Shape := ⟨2, ![128, 32]⟩
abbrev S8x256 : Shape := ⟨2, ![8, 256]⟩
abbrev S8 : Shape := ⟨1, ![8]⟩
abbrev S800000x32 : Shape := ⟨2, ![800000, 32]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x32 : Shape := ⟨2, ![1, 32]⟩
abbrev S8000x32 : Shape := ⟨2, ![8000, 32]⟩
abbrev S50000x32 : Shape := ⟨2, ![50000, 32]⟩
abbrev S32x128 : Shape := ⟨2, ![32, 128]⟩
abbrev S1x128 : Shape := ⟨2, ![1, 128]⟩
abbrev S800000x128 : Shape := ⟨2, ![800000, 128]⟩
abbrev S8000x128 : Shape := ⟨2, ![8000, 128]⟩
abbrev S50000x128 : Shape := ⟨2, ![50000, 128]⟩
abbrev S10000x128 : Shape := ⟨2, ![10000, 128]⟩
abbrev S8x128 : Shape := ⟨2, ![8, 128]⟩
abbrev S128x8 : Shape := ⟨2, ![128, 8]⟩
abbrev S1x8 : Shape := ⟨2, ![1, 8]⟩
abbrev S800000x8 : Shape := ⟨2, ![800000, 8]⟩
abbrev S8000x8 : Shape := ⟨2, ![8000, 8]⟩

abbrev nBuf : Space → Nat
  | .hbm => 84
  | .vmem => 34
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S50000x1x32, .f32⟩
  | .hbm, ⟨3, _⟩ => ⟨S800000x1x32, .f32⟩
  | .hbm, ⟨4, _⟩ => ⟨S32x32, .f32⟩
  | .hbm, ⟨5, _⟩ => ⟨S32, .f32⟩
  | .hbm, ⟨6, _⟩ => ⟨S128x64, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x32, .f32⟩
  | .hbm, ⟨11, _⟩ => ⟨S128, .f32⟩
  | .hbm, ⟨12, _⟩ => ⟨S8x256, .f32⟩
  | .hbm, ⟨13, _⟩ => ⟨S8, .f32⟩
  | .hbm, ⟨14, _⟩ => ⟨S800000x32, .f32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S1x32, .f32⟩
  | .hbm, ⟨26, _⟩ => ⟨S800000x32, .f32⟩
  | .hbm, ⟨27, _⟩ => ⟨S_, .f32⟩
  | .hbm, ⟨28, _⟩ => ⟨S50000x32, .f32⟩
  | .hbm, ⟨29, _⟩ => ⟨S800000x1, .i32⟩
  | .hbm, ⟨30, _⟩ => ⟨S50000x32, .f32⟩
  | .hbm, ⟨31, _⟩ => ⟨S50000x32, .f32⟩
  | .hbm, ⟨32, _⟩ => ⟨S50000x32, .f32⟩
  | .hbm, ⟨33, _⟩ => ⟨S_, .f32⟩
  | .hbm, ⟨34, _⟩ => ⟨S50000x32, .f32⟩
  | .hbm, ⟨35, _⟩ => ⟨S50000x32, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x32, .f32⟩
  | .hbm, ⟨45, _⟩ => ⟨S128x32, .f32⟩
  | .hbm, ⟨46, _⟩ => ⟨S32x128, .f32⟩
  | .hbm, ⟨47, _⟩ => ⟨S128x32, .f32⟩
  | .hbm, ⟨48, _⟩ => ⟨S32x128, .f32⟩
  | .hbm, ⟨49, _⟩ => ⟨S1x128, .f32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x128, .f32⟩
  | .hbm, ⟨77, _⟩ => ⟨S8x128, .f32⟩
  | .hbm, ⟨78, _⟩ => ⟨S128x8, .f32⟩
  | .hbm, ⟨79, _⟩ => ⟨S8x128, .f32⟩
  | .hbm, ⟨80, _⟩ => ⟨S128x8, .f32⟩
  | .hbm, ⟨81, _⟩ => ⟨S1x128, .f32⟩
  | .hbm, ⟨82, _⟩ => ⟨S1x8, .f32⟩
  | .hbm, ⟨83, _⟩ => ⟨S800000x8, .f32⟩
  | .local _ .vmem, ⟨0, _⟩ => ⟨S8000x32, .f32⟩
  | .local _ .vmem, ⟨1, _⟩ => ⟨S8000x32, .f32⟩
  | .local _ .vmem, ⟨2, _⟩ => ⟨S32x32, .f32⟩
  | .local _ .vmem, ⟨3, _⟩ => ⟨S1x32, .f32⟩
  | .local _ .vmem, ⟨4, _⟩ => ⟨S8000x32, .f32⟩
  | .local _ .vmem, ⟨5, _⟩ => ⟨S8000x32, .f32⟩
  | .local _ .vmem, ⟨6, _⟩ => ⟨S8000x32, .f32⟩
  | .local _ .vmem, ⟨7, _⟩ => ⟨S8000x32, .f32⟩
  | .local _ .vmem, ⟨8, _⟩ => ⟨S8000x32, .f32⟩
  | .local _ .vmem, ⟨9, _⟩ => ⟨S8000x32, .f32⟩
  | .local _ .vmem, ⟨10, _⟩ => ⟨S32x128, .f32⟩
  | .local _ .vmem, ⟨11, _⟩ => ⟨S32x128, .f32⟩
  | .local _ .vmem, ⟨12, _⟩ => ⟨S1x128, .f32⟩
  | .local _ .vmem, ⟨13, _⟩ => ⟨S8000x128, .f32⟩
  | .local _ .vmem, ⟨14, _⟩ => ⟨S8000x128, .f32⟩
  | .local _ .vmem, ⟨15, _⟩ => ⟨S10000x128, .f32⟩
  | .local _ .vmem, ⟨16, _⟩ => ⟨S10000x128, .f32⟩
  | .local _ .vmem, ⟨17, _⟩ => ⟨S128x128, .f32⟩
  | .local _ .vmem, ⟨18, _⟩ => ⟨S1x128, .f32⟩
  | .local _ .vmem, ⟨19, _⟩ => ⟨S10000x128, .f32⟩
  | .local _ .vmem, ⟨20, _⟩ => ⟨S10000x128, .f32⟩
  | .local _ .vmem, ⟨21, _⟩ => ⟨S8000x128, .f32⟩
  | .local _ .vmem, ⟨22, _⟩ => ⟨S8000x128, .f32⟩
  | .local _ .vmem, ⟨23, _⟩ => ⟨S8000x128, .f32⟩
  | .local _ .vmem, ⟨24, _⟩ => ⟨S8000x128, .f32⟩
  | .local _ .vmem, ⟨25, _⟩ => ⟨S8000x32, .f32⟩
  | .local _ .vmem, ⟨26, _⟩ => ⟨S8000x32, .f32⟩
  | .local _ .vmem, ⟨27, _⟩ => ⟨S128x32, .f32⟩
  | .local _ .vmem, ⟨28, _⟩ => ⟨S1x128, .f32⟩
  | .local _ .vmem, ⟨29, _⟩ => ⟨S128x8, .f32⟩
  | .local _ .vmem, ⟨30, _⟩ => ⟨S128x8, .f32⟩
  | .local _ .vmem, ⟨31, _⟩ => ⟨S1x8, .f32⟩
  | .local _ .vmem, ⟨32, _⟩ => ⟨S8000x8, .f32⟩
  | .local _ .vmem, ⟨33, _⟩ => ⟨S8000x8, .f32⟩
  | _, _ => ⟨S800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call0_cst : Ref sig .tc := ⟨.hbm, 33, rfl⟩
abbrev main_call0_v0 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_5 : Ref sig .tc := ⟨.hbm, 59, rfl⟩
abbrev main_v36 : Ref sig .tc := ⟨.hbm, 60, rfl⟩
abbrev main_v37 : Ref sig .tc := ⟨.hbm, 61, rfl⟩
abbrev main_c_6 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_7 : Ref sig .tc := ⟨.hbm, 68, rfl⟩
abbrev main_v43 : Ref sig .tc := ⟨.hbm, 69, rfl⟩
abbrev main_v44 : Ref sig .tc := ⟨.hbm, 70, rfl⟩
abbrev main_c_8 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc3_stg8_0 : Ref sig .tc := ⟨.vmem, 32, rfl⟩
abbrev cc3_stg8_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem7_0 : DmaSem sig := 31
abbrev cc3_sem8_0 : DmaSem sig := 32
abbrev cc3_sem8_1 : DmaSem sig := 33

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x8 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x8 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x8 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S8000x8 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  shapeCasts_S800000x1x32_S800000x32 : S800000x1x32.ShapeCasts S800000x32
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  shapeCasts_S32_S1x32 : S32.ShapeCasts S1x32
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  slices_S128x64_S128x32_0_0 : S128x64.Slices ![0, 0] S128x32
  transposes_S128x32_S32x128_1_0 : S128x32.Transposes [1, 0] S32x128
  slices_S128x64_S128x32_0_32 : S128x64.Slices ![0, 32] S128x32
  shapeCasts_S128_S1x128 : S128.ShapeCasts S1x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  broadcasts_S1x128_S10000x128 : S1x128.Broadcasts S10000x128
  slices_S8x256_S8x128_0_0 : S8x256.Slices ![0, 0] S8x128
  transposes_S8x128_S128x8_1_0 : S8x128.Transposes [1, 0] S128x8
  slices_S8x256_S8x128_0_128 : S8x256.Slices ![0, 128] S8x128
  shapeCasts_S8_S1x8 : S8.ShapeCasts S1x8
  shapeCasts_S8000x128_S8000x128 : S8000x128.ShapeCasts S8000x128
  inb_S128x32_S128x32_0_0 : ∀ a, (![0, 0] : Fin 2 → Nat) a + S128x32.size a ≤ S128x32.size a
  h_S128x32 : 0 < S128x32.numel
  transposes_S128x32_p1_0_S32x128 : S128x32.Transposes [1, 0] S32x128
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S8000x8 : S1x8.Broadcasts S8000x8
  inb_S8000x8_S8000x8_0_0 : ∀ a, (![0, 0] : Fin 2 → Nat) a + S8000x8.size a ≤ S8000x8.size a
  h_S8000x8 : 0 < S8000x8.numel
  scatter_S50000_S800000x1_S800000_n_0_0_1_wf : ScatterDims.WF S50000 S800000x1 S800000 [] [0] [0] 1
  dot_S8000x32_S32x32_S8000x32_1_0_0_1_n_n_wf : DotDims.WF S8000x32 S32x32 S8000x32 [1] [0] [0] [1] [] []
  scatter_S50000x32_S800000x1_S800000x32_1_0_0_1_wf : ScatterDims.WF S50000x32 S800000x1 S800000x32 [1] [0] [0] 1
  gather_S50000x32_S800000x1_S800000x32_1_0_n_n_0_1_132_wf : GatherDims.WF S50000x32 S800000x1 S800000x32 [1] [0] [] [0] [] 1 ![1, 32]
  dot_S8000x32_S32x128_S8000x128_1_0_0_1_n_n_wf : DotDims.WF S8000x32 S32x128 S8000x128 [1] [0] [0] [1] [] []
  scatter_S50000x128_S800000x1_S800000x128_1_0_0_1_wf : ScatterDims.WF S50000x128 S800000x1 S800000x128 [1] [0] [0] 1
  dot_S10000x128_S128x128_S10000x128_1_0_0_1_n_n_wf : DotDims.WF S10000x128 S128x128 S10000x128 [1] [0] [0] [1] [] []
  gather_S50000x128_S800000x1_S800000x128_1_0_n_n_0_1_1128_wf : GatherDims.WF S50000x128 S800000x1 S800000x128 [1] [0] [] [0] [] 1 ![1, 128]
  dot_S8000x128_S128x8_S8000x8_1_0_0_1_n_n_wf : DotDims.WF S8000x128 S128x8 S8000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x32.size a ≤ S800000x32.size a
  hwx0_0 : ∀ i : grid0.Coords, EltTy.bits .f32 = 32 ∨ (Rect.block (s := S800000x32) S8000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x32.size a ≤ S800000x32.size a
  hwx0_3 : ∀ i : grid0.Coords, EltTy.bits .f32 = 32 ∨ (Rect.block (s := S800000x32) S8000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x32.size a ≤ S800000x32.size a
  hwx1_0 : ∀ i : grid1.Coords, EltTy.bits .f32 = 32 ∨ (Rect.block (s := S800000x32) S8000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x32.size a ≤ S800000x32.size a
  hwx1_1 : ∀ i : grid1.Coords, EltTy.bits .f32 = 32 ∨ (Rect.block (s := S800000x32) S8000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x128.size a ≤ S32x128.size a
  hwx1_2 : ∀ i : grid1.Coords, EltTy.bits .f32 = 32 ∨ (Rect.block (s := S32x128) S32x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x128.size a ≤ S32x128.size a
  hwx1_3 : ∀ i : grid1.Coords, EltTy.bits .f32 = 32 ∨ (Rect.block (s := S32x128) S32x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x128.size a ≤ S800000x128.size a
  hwx1_5 : ∀ i : grid1.Coords, EltTy.bits .f32 = 32 ∨ (Rect.block (s := S800000x128) S8000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S50000x128.size a
  hwx2_3 : ∀ i : grid2.Coords, EltTy.bits .f32 = 32 ∨ (Rect.block (s := S50000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x128.size a ≤ S800000x128.size a
  hwx3_0 : ∀ i : grid3.Coords, EltTy.bits .f32 = 32 ∨ (Rect.block (s := S800000x128) S8000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x128.size a ≤ S800000x128.size a
  hwx3_1 : ∀ i : grid3.Coords, EltTy.bits .f32 = 32 ∨ (Rect.block (s := S800000x128) S8000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x32.size a ≤ S800000x32.size a
  hwx3_2 : ∀ i : grid3.Coords, EltTy.bits .f32 = 32 ∨ (Rect.block (s := S800000x32) S8000x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x32.size a ≤ S128x32.size a
  hwx3_3 : ∀ i : grid3.Coords, EltTy.bits .f32 = 32 ∨ (Rect.block (s := S128x32) S128x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x8.size a ≤ S128x8.size a
  hwx3_5 : ∀ i : grid3.Coords, EltTy.bits .f32 = 32 ∨ (Rect.block (s := S128x8) S128x8.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x8.size a ≤ S128x8.size a
  hwx3_6 : ∀ i : grid3.Coords, EltTy.bits .f32 = 32 ∨ (Rect.block (s := S128x8) S128x8.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x8.size a ≤ S1x8.size a
  hwx3_7 : ∀ i : grid3.Coords, EltTy.bits .f32 = 32 ∨ (Rect.block (s := S1x8) S1x8.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S8000x8.size a ≤ S800000x8.size a
  hwx3_8 : ∀ i : grid3.Coords, EltTy.bits .f32 = 32 ∨ (Rect.block (s := S800000x8) S8000x8.size (cc3_transform_8 i) (hinb3_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S8000x32_S32x32_S8000x32_1_0_0_1_n_n : DotDims S8000x32 S32x32 S8000x32 where
  lhsContracting := [1]
  rhsContracting := [0]
  lhsNonContracting := [0]
  rhsNonContracting := [1]
  lhsBatch := []
  rhsBatch := []
  wf := dot_S8000x32_S32x32_S8000x32_1_0_0_1_n_n_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def dot_S8000x32_S32x128_S8000x128_1_0_0_1_n_n : DotDims S8000x32 S32x128 S8000x128 where
  lhsContracting := [1]
  rhsContracting := [0]
  lhsNonContracting := [0]
  rhsNonContracting := [1]
  lhsBatch := []
  rhsBatch := []
  wf := dot_S8000x32_S32x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x8_S8000x8_1_0_0_1_n_n : DotDims S8000x128 S128x8 S8000x8 where
  lhsContracting := [1]
  rhsContracting := [0]
  lhsNonContracting := [0]
  rhsNonContracting := [1]
  lhsBatch := []
  rhsBatch := []
  wf := dot_S8000x128_S128x8_S8000x8_1_0_0_1_n_n_wf

abbrev win0_0 : Pipeline.Window sig grid0 :=
  Pipeline.Window.ofSpec (Memref.whole main_v0) S8000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S8000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S8000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S32x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S32x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S8000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v33) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v42) S8000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S8000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v0) S8000x32.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S128x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v51) S128x8.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v53) S128x8.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v55) S1x8.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v56) S8000x8.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S800000 : Shape := ⟨1, ![800000]⟩
abbrev S50000x1x32 : Shape := ⟨3, ![50000, 1, 32]⟩
abbrev S800000x1x32 : Shape := ⟨3, ![800000, 1, 32]⟩
abbrev S32x32 : Shape := ⟨2, ![32, 32]⟩
abbrev S32 : Shape := ⟨1, ![32]⟩
abbrev S128x64 : Shape := ⟨2, ![128, 64]⟩
abbrev S128 : Shape := ⟨1, ![128]⟩
abbrev S128x128 : Shape := ⟨2, ![128, 128]⟩
abbrev S128x32 : Shape := ⟨2, ![128, 32]⟩
abbrev S8x256 : Shape := ⟨2, ![8, 256]⟩
abbrev S8 : Shape := ⟨1, ![8]⟩
abbrev S800000x32 : Shape := ⟨2, ![800000, 32]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x32 : Shape := ⟨2, ![1, 32]⟩
abbrev S50000x32 : Shape := ⟨2, ![50000, 32]⟩
abbrev S800000x64 : Shape := ⟨2, ![800000, 64]⟩
abbrev S64x128 : Shape := ⟨2, ![64, 128]⟩
abbrev S800000x128 : Shape := ⟨2, ![800000, 128]⟩
abbrev S1x128 : Shape := ⟨2, ![1, 128]⟩
abbrev S50000x128 : Shape := ⟨2, ![50000, 128]⟩
abbrev S32x128 : Shape := ⟨2, ![32, 128]⟩
abbrev S800000x256 : Shape := ⟨2, ![800000, 256]⟩
abbrev S256x8 : Shape := ⟨2, ![256, 8]⟩
abbrev S800000x8 : Shape := ⟨2, ![800000, 8]⟩
abbrev S1x8 : Shape := ⟨2, ![1, 8]⟩

abbrev nBuf : Space → Nat
  | .hbm => 106
  | .vmem => 0
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S50000x1x32, .f32⟩
  | .hbm, ⟨3, _⟩ => ⟨S800000x1x32, .f32⟩
  | .hbm, ⟨4, _⟩ => ⟨S32x32, .f32⟩
  | .hbm, ⟨5, _⟩ => ⟨S32, .f32⟩
  | .hbm, ⟨6, _⟩ => ⟨S128x64, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x32, .f32⟩
  | .hbm, ⟨11, _⟩ => ⟨S128, .f32⟩
  | .hbm, ⟨12, _⟩ => ⟨S8x256, .f32⟩
  | .hbm, ⟨13, _⟩ => ⟨S8, .f32⟩
  | .hbm, ⟨14, _⟩ => ⟨S800000x32, .f32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S800000x32, .f32⟩
  | .hbm, ⟨26, _⟩ => ⟨S32x32, .f32⟩
  | .hbm, ⟨27, _⟩ => ⟨S800000x32, .f32⟩
  | .hbm, ⟨28, _⟩ => ⟨S1x32, .f32⟩
  | .hbm, ⟨29, _⟩ => ⟨S800000x32, .f32⟩
  | .hbm, ⟨30, _⟩ => ⟨S800000x32, .f32⟩
  | .hbm, ⟨31, _⟩ => ⟨S_, .f32⟩
  | .hbm, ⟨32, _⟩ => ⟨S50000x32, .f32⟩
  | .hbm, ⟨33, _⟩ => ⟨S800000x1, .i32⟩
  | .hbm, ⟨34, _⟩ => ⟨S50000x32, .f32⟩
  | .hbm, ⟨35, _⟩ => ⟨S50000x32, .f32⟩
  | .hbm, ⟨36, _⟩ => ⟨S50000x32, .f32⟩
  | .hbm, ⟨37, _⟩ => ⟨S_, .f32⟩
  | .hbm, ⟨38, _⟩ => ⟨S50000x32, .f32⟩
  | .hbm, ⟨39, _⟩ => ⟨S50000x32, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x32, .f32⟩
  | .hbm, ⟨49, _⟩ => ⟨S800000x64, .f32⟩
  | .hbm, ⟨50, _⟩ => ⟨S64x128, .f32⟩
  | .hbm, ⟨51, _⟩ => ⟨S800000x128, .f32⟩
  | .hbm, ⟨52, _⟩ => ⟨S1x128, .f32⟩
  | .hbm, ⟨53, _⟩ => ⟨S800000x128, .f32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S128x128, .f32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .f32⟩
  | .hbm, ⟨79, _⟩ => ⟨S_, .f32⟩
  | .hbm, ⟨80, _⟩ => ⟨S800000x128, .f32⟩
  | .hbm, ⟨81, _⟩ => ⟨S800000x128, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x128, .f32⟩
  | .hbm, ⟨91, _⟩ => ⟨S_, .f32⟩
  | .hbm, ⟨92, _⟩ => ⟨S800000x128, .f32⟩
  | .hbm, ⟨93, _⟩ => ⟨S800000x128, .f32⟩
  | .hbm, ⟨94, _⟩ => ⟨S800000x128, .f32⟩
  | .hbm, ⟨95, _⟩ => ⟨S32x128, .f32⟩
  | .hbm, ⟨96, _⟩ => ⟨S800000x128, .f32⟩
  | .hbm, ⟨97, _⟩ => ⟨S1x128, .f32⟩
  | .hbm, ⟨98, _⟩ => ⟨S800000x128, .f32⟩
  | .hbm, ⟨99, _⟩ => ⟨S800000x128, .f32⟩
  | .hbm, ⟨100, _⟩ => ⟨S800000x256, .f32⟩
  | .hbm, ⟨101, _⟩ => ⟨S256x8, .f32⟩
  | .hbm, ⟨102, _⟩ => ⟨S800000x8, .f32⟩
  | .hbm, ⟨103, _⟩ => ⟨S1x8, .f32⟩
  | .hbm, ⟨104, _⟩ => ⟨S800000x8, .f32⟩
  | .hbm, ⟨105, _⟩ => ⟨S800000x8, .f32⟩
  | _, _ => ⟨S800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call0_cst : Ref sig .tc := ⟨.hbm, 37, rfl⟩
abbrev main_call0_v0 : Ref sig .tc := ⟨.hbm, 38, rfl⟩
abbrev main_v19 : Ref sig .tc := ⟨.hbm, 39, rfl⟩
abbrev main_c : Ref sig .tc := ⟨.hbm, 40, rfl⟩
abbrev main_v20 : Ref sig .tc := ⟨.hbm, 41, rfl⟩
abbrev main_v21 : Ref sig .tc := ⟨.hbm, 42, rfl⟩
abbrev main_c_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_call1_cst : Ref sig .tc := ⟨.hbm, 67, rfl⟩
abbrev main_call1_v0 : Ref sig .tc := ⟨.hbm, 68, rfl⟩
abbrev main_v44 : Ref sig .tc := ⟨.hbm, 69, rfl⟩
abbrev main_c_5 : Ref sig .tc := ⟨.hbm, 70, rfl⟩
abbrev main_v45 : Ref sig .tc := ⟨.hbm, 71, rfl⟩
abbrev main_v46 : Ref sig .tc := ⟨.hbm, 72, rfl⟩
abbrev main_c_6 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_7 : Ref sig .tc := ⟨.hbm, 79, rfl⟩
abbrev main_v52 : Ref sig .tc := ⟨.hbm, 80, rfl⟩
abbrev main_v53 : Ref sig .tc := ⟨.hbm, 81, rfl⟩
abbrev main_c_8 : Ref sig .tc := ⟨.hbm, 82, rfl⟩
abbrev main_v54 : Ref sig .tc := ⟨.hbm, 83, rfl⟩
abbrev main_v55 : Ref sig .tc := ⟨.hbm, 84, rfl⟩
abbrev main_c_9 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩

abbrev nD : Nat := 1
abbrev τ : Topo := Topo.v7x

variable {F : FTy → Type} [FloatOps F]

class Facts₀ : Prop where
  shapeCasts_S800000x1x32_S800000x32 : S800000x1x32.ShapeCasts S800000x32
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  transposes_S32x32_S32x32_1_0 : S32x32.Transposes [1, 0] S32x32
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  concatenates_S800000x32_S800000x32_S800000x64_d1 : Shape.Concatenates [S800000x32, S800000x32] S800000x64 1
  transposes_S128x64_S64x128_1_0 : S128x64.Transposes [1, 0] S64x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  bcast_S1x128_S50000x128_0_1 : S1x128.BroadcastsInDim S50000x128 (![0, 1] : Fin 2 → Fin S50000x128.rank)
  bcast_S_S800000x128 : S_.BroadcastsInDim S800000x128 (![] : Fin 0 → Fin S800000x128.rank)
  transposes_S128x32_S32x128_1_0 : S128x32.Transposes [1, 0] S32x128
  concatenates_S800000x128_S800000x128_S800000x256_d1 : Shape.Concatenates [S800000x128, S800000x128] S800000x256 1
  transposes_S8x256_S256x8_1_0 : S8x256.Transposes [1, 0] S256x8
  bcast_S8_S1x8_1 : S8.BroadcastsInDim S1x8 (![1] : Fin 1 → Fin S1x8.rank)
  bcast_S1x8_S800000x8_0_1 : S1x8.BroadcastsInDim S800000x8 (![0, 1] : Fin 2 → Fin S800000x8.rank)
  scatter_S50000_S800000x1_S800000_n_0_0_1_wf : ScatterDims.WF S50000 S800000x1 S800000 [] [0] [0] 1
  dot_S800000x32_S32x32_S800000x32_1_0_0_1_n_n_wf : DotDims.WF S800000x32 S32x32 S800000x32 [1] [0] [0] [1] [] []
  scatter_S50000x32_S800000x1_S800000x32_1_0_0_1_wf : ScatterDims.WF S50000x32 S800000x1 S800000x32 [1] [0] [0] 1
  gather_S50000x32_S800000x1_S800000x32_1_0_n_n_0_1_132_wf : GatherDims.WF S50000x32 S800000x1 S800000x32 [1] [0] [] [0] [] 1 ![1, 32]
  dot_S800000x64_S64x128_S800000x128_1_0_0_1_n_n_wf : DotDims.WF S800000x64 S64x128 S800000x128 [1] [0] [0] [1] [] []
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  dot_S800000x32_S32x128_S800000x128_1_0_0_1_n_n_wf : DotDims.WF S800000x32 S32x128 S800000x128 [1] [0] [0] [1] [] []
  dot_S800000x256_S256x8_S800000x8_1_0_0_1_n_n_wf : DotDims.WF S800000x256 S256x8 S800000x8 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S800000x32_S32x32_S800000x32_1_0_0_1_n_n : DotDims S800000x32 S32x32 S800000x32 where
  lhsContracting := [1]
  rhsContracting := [0]
  lhsNonContracting := [0]
  rhsNonContracting := [1]
  lhsBatch := []
  rhsBatch := []
  wf := dot_S800000x32_S32x32_S800000x32_1_0_0_1_n_n_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def dot_S800000x64_S64x128_S800000x128_1_0_0_1_n_n : DotDims S800000x64 S64x128 S800000x128 where
  lhsContracting := [1]
  rhsContracting := [0]
  lhsNonContracting := [0]
  rhsNonContracting := [1]
  lhsBatch := []
  rhsBatch := []
  wf := dot_S800000x64_S64x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x32_S32x128_S800000x128_1_0_0_1_n_n : DotDims S800000x32 S32x128 S800000x128 where
  lhsContracting := [1]
  rhsContracting := [0]
  lhsNonContracting := [0]
  rhsNonContracting := [1]
  lhsBatch := []
  rhsBatch := []
  wf := dot_S800000x32_S32x128_S800000x128_1_0_0_1_n_n_wf
def dot_S800000x256_S256x8_S800000x8_1_0_0_1_n_n : DotDims S800000x256 S256x8 S800000x8 where
  lhsContracting := [1]
  rhsContracting := [0]
  lhsNonContracting := [0]
  rhsNonContracting := [1]
  lhsBatch := []
  rhsBatch := []
  wf := dot_S800000x256_S256x8_S800000x8_1_0_0_1_n_n_wf

class Facts : Prop extends Facts₀ where

variable [Facts]
-- ==== Proof.KRun.lean ====
/-
  The idealized kernel program's run with its result named.

  The program is ten segments: host operations, then a tiled kernel region, four times over. The buffer contents
  at each boundary are a fold from the launch memory (`W0` … `W10`); every weakly fair execution terminates with every
  buffer at the last boundary's contents. Here the result buffer is kept in the post beside the unchanged arguments:
  it ends at `W10` read at that buffer.
-/
import proofs.«101331_j30245159698931_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem run : θ_run defs (onTc (τ := τ) (main (F := F))) ⟨m, fun _ => 0, ρ⟩ (fun r => ∀ c : Dev nD,
      r.2.mem ((c.tc : Thread nD τ).loc main_v56) = W10 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v56 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c)⟩)

end Cert.KernelIdeal.KRun

end
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.Forms.lean ====
/-
  The four tiled stages of the message-passing network as functions of whole arrays, entry by entry, on the extended
  reals. Rows are edges (800000) or nodes (50000); every stage is a matrix product over the feature axis plus a bias
  row, the weights read in the arrangement the stage is handed them:

    linA e W b        (r, j) ↦ Σ_k (e(r,k) + e(r,k)) · W(j,k) + b(0,j)
    linB h e wh we b  (r, j) ↦ (Σ_k h(r,k) · wh(k,j) + Σ_k e(r,k) · we(k,j)) + b(0,j)
    linC x W b        (r, j) ↦ max (Σ_k (x(r,k) + x(r,k)) · W(j,k) + b(0,j)) 0
    linD s d e W₁ b₁ wc we b
                      (r, j) ↦ (Σ_k (s(r,k)·10 + d(r,k)·10) · wc(k,j)
                                 + Σ_k (Σ_l e(r,l) · W₁(k,l) + b₁(0,k)) · we(k,j)) + b(0,j)
-/
import Idealize.ShloMosaic.PureOps.Ideal
import Idealize.ShloMosaic.Lib.ValueIdx

noncomputable section

namespace Cert.Forms

open Idealize.ShloMosaic Idealize.ShloMosaic.ValueIdx

/-- A real matrix of the given extents, entries extended reals. -/
abbrev Mat (a b : Nat) := FVec Ideal ⟨2, ![a, b]⟩ .f32

/-- The scale of the edge predictor's endpoint features. -/
abbrev ten : Ideal .f32 := Ideal.ofBits .f32 0x41200000#32

/-- The floor of the rectifier. -/
abbrev zero : Ideal .f32 := Ideal.ofBits .f32 0x00000000#32

def linA (e : Mat 800000 32) (W : Mat 32 32) (b : Mat 1 32) : Mat 800000 32 := fun i =>
  (∑ k : Fin 32, (e (ix2 (i 0) k) + e (ix2 (i 0) k)) * W (ix2 (i 1) k)) + b (ix2 (0 : Fin 1) (i 1))

theorem linA_apply (e : Mat 800000 32) (W : Mat 32 32) (b : Mat 1 32) (r : Fin 800000) (j : Fin 32) :
    linA e W b (ix2 r j) = (∑ k : Fin 32, (e (ix2 r k) + e (ix2 r k)) * W (ix2 j k)) + b (ix2 (0 : Fin 1) j) := rfl

def linB (h e : Mat 800000 32) (wh we : Mat 32 128) (b : Mat 1 128) : Mat 800000 128 := fun i =>
  ((∑ k : Fin 32, h (ix2 (i 0) k) * wh (ix2 k (i 1))) + ∑ k : Fin 32, e (ix2 (i 0) k) * we (ix2 k (i 1))) + b (ix2 (0 : Fin 1) (i 1))

theorem linB_apply (h e : Mat 800000 32) (wh we : Mat 32 128) (b : Mat 1 128) (r : Fin 800000) (j : Fin 128) :
    linB h e wh we b (ix2 r j)
      = ((∑ k : Fin 32, h (ix2 r k) * wh (ix2 k j)) + ∑ k : Fin 32, e (ix2 r k) * we (ix2 k j)) + b (ix2 (0 : Fin 1) j) := rfl

def linC (x : Mat 50000 128) (W : Mat 128 128) (b : Mat 1 128) : Mat 50000 128 := fun i =>
  max ((∑ k : Fin 128, (x (ix2 (i 0) k) + x (ix2 (i 0) k)) * W (ix2 (i 1) k)) + b (ix2 (0 : Fin 1) (i 1))) zero

theorem linC_apply (x : Mat 50000 128) (W : Mat 128 128) (b : Mat 1 128) (r : Fin 50000) (j : Fin 128) :
    linC x W b (ix2 r j) = max ((∑ k : Fin 128, (x (ix2 r k) + x (ix2 r k)) * W (ix2 j k)) + b (ix2 (0 : Fin 1) j)) zero := rfl

def linD (s d : Mat 800000 128) (e : Mat 800000 32) (W₁ : Mat 128 32) (b₁ : Mat 1 128) (wc we : Mat 128 8) (b : Mat 1 8) :
    Mat 800000 8 := fun i =>
  ((∑ k : Fin 128, (s (ix2 (i 0) k) * ten + d (ix2 (i 0) k) * ten) * wc (ix2 k (i 1)))
    + ∑ k : Fin 128, ((∑ l : Fin 32, e (ix2 (i 0) l) * W₁ (ix2 k l)) + b₁ (ix2 (0 : Fin 1) k)) * we (ix2 k (i 1)))
    + b (ix2 (0 : Fin 1) (i 1))

theorem linD_apply (s d : Mat 800000 128) (e : Mat 800000 32) (W₁ : Mat 128 32) (b₁ : Mat 1 128) (wc we : Mat 128 8) (b : Mat 1 8)
    (r : Fin 800000) (j : Fin 8) :
    linD s d e W₁ b₁ wc we b (ix2 r j)
      = ((∑ k : Fin 128, (s (ix2 r k) * ten + d (ix2 r k) * ten) * wc (ix2 k j))
          + ∑ k : Fin 128, ((∑ l : Fin 32, e (ix2 r l) * W₁ (ix2 k l)) + b₁ (ix2 (0 : Fin 1) k)) * we (ix2 k j))
          + b (ix2 (0 : Fin 1) j) := rfl

end Cert.Forms

end
-- ==== Proof.StageA.lean ====
/-
  The first linear layer's kernel, read as one function of the arrays it is launched on.

  Each of its 100 grid points takes 8000 rows of the edge-feature matrix e [800000, 32], doubles them, multiplies by
  the transposed weight matrix W [32, 32] and adds the bias row b [1, 32]; point t writes rows 8000·t … 8000·t + 7999
  of the output. So the output array is, at (r, j),   Σ_k (e(r,k) + e(r,k)) · W(j,k) + b(0,j),
  whatever the contents the region is entered with: the statement is over any entry contents `V`.
-/
import proofs.«101331_j30245159698931_2_alg».proof.Proof.Gen.KernelIdeal.Frame
import proofs.«101331_j30245159698931_2_alg».proof.Proof.LibPlainDot
import proofs.«101331_j30245159698931_2_alg».proof.Proof.Forms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.StageA

open Cert.Forms Cert.KernelIdeal Cert.KernelIdeal.Gen Idealize.ShloMosaic Idealize.ShloMosaic.TcCoe Idealize.ShloMosaic.ValueIdx Idealize.SL.Sem
open Idealize.ShloMosaic.Pipeline (Dat Cfg Window)

/-- The tile product's dimension numbers are those of a plain [8000, 32] × [32, 32] product. -/
theorem plain : PlainDot.IsPlain dot_S8000x32_S32x32_S8000x32_1_0_0_1_n_n where
  rank := rfl
  size := rfl
  lhs0 := fun i q => by
    unfold DotDims.lhsIdx
    rw [dif_neg (show ¬(0 : Fin S8000x32.rank) ∈ dot_S8000x32_S32x32_S8000x32_1_0_0_1_n_n.lhsBatch by decide), dif_pos (show (0 : Fin S8000x32.rank) ∈ dot_S8000x32_S32x32_S8000x32_1_0_0_1_n_n.lhsNonContracting by decide)]
    rfl
  lhs1 := fun i q => dot_S8000x32_S32x32_S8000x32_1_0_0_1_n_n.lhsIdx_val_of_single rfl i q
  rhs0 := fun i q => dot_S8000x32_S32x32_S8000x32_1_0_0_1_n_n.rhsIdx_val_of_single rfl i q
  rhs1 := fun i q => by
    unfold DotDims.rhsIdx
    rw [dif_neg (show ¬(1 : Fin S32x32.rank) ∈ dot_S8000x32_S32x32_S8000x32_1_0_0_1_n_n.rhsBatch by decide), dif_pos (show (1 : Fin S32x32.rank) ∈ dot_S8000x32_S32x32_S8000x32_1_0_0_1_n_n.rhsNonContracting by decide)]
    rfl

/-- What one grid point computes from its blocks, at (p, q) of the block. -/
theorem pay_apply (x0 : Vec Ideal S8000x32 .f32) (x1 : Vec Ideal S32x32 .f32) (x2 : Vec Ideal S1x32 .f32) (p : Fin 8000) (q : Fin 32) :
    k0_pay1 (F := Ideal) x0 x1 x2 (ix2 p q)
      = (∑ k : Fin 32, (x0 (ix2 p k) + x0 (ix2 p k)) * x1 (ix2 q k)) + x2 (ix2 (0 : Fin 1) q) := by
  unfold k0_pay1
  rw [addf_apply]
  refine congrArg₂ (· + ·) ((PlainDot.matmul_zero_apply _ plain none _ _ p q).trans (Finset.sum_congr rfl fun k _ => ?_))
    ((broadcastTo_1b_ab_apply _ _ p q).trans ?_)
  · refine congrArg₂ (· * ·) ?_ ((transpose_ix2_apply _ _ k q).trans ?_)
    · rw [truncf_apply, addf_apply, shapeCast_self]
    · rw [truncf_apply]
  · rw [shapeCast_self]

theorem hz : (![0, 0] : Fin 2 → Nat) = fun _ => 0 := funext fun a => by fin_cases a <;> rfl

/-- The printed index maps over the grid: the row blocks move with the point, the weights and the bias stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's block is row 8000·t + p of the array. -/
def row (t : Fin cfg0.N) (p : Fin 8000) : Fin 800000 := ⟨t.val * 8000 + p.val, by
  have ht : t.val < 100 := t.isLt
  have hp := p.isLt
  omega⟩

theorem emb0 (t : Fin cfg0.N) (p : Fin 8000) (k : Fin 32) : ((cfg0.win 0).blk t).view.emb (ix2 p k) = ix2 (row t p) k := by
  obtain ⟨e0, e1, -⟩ := idx_facts t
  funext a; apply Fin.ext
  match a with
  | ⟨0, _⟩ => show win0_0.index t (0 : Fin 2) * 8000 + 1 * p.val = t.val * 8000 + p.val; omega
  | ⟨1, _⟩ => show win0_0.index t (1 : Fin 2) * 32 + 1 * k.val = k.val; omega

theorem emb1 (t : Fin cfg0.N) (q k : Fin 32) : ((cfg0.win 1).blk t).view.emb (ix2 q k) = ix2 q k := by
  obtain ⟨-, -, e2, e3, -⟩ := idx_facts t
  funext a; apply Fin.ext
  match a with
  | ⟨0, _⟩ => show win0_1.index t (0 : Fin 2) * 32 + 1 * q.val = q.val; omega
  | ⟨1, _⟩ => show win0_1.index t (1 : Fin 2) * 32 + 1 * k.val = k.val; omega

theorem emb2 (t : Fin cfg0.N) (u : Fin 1) (q : Fin 32) : ((cfg0.win 2).blk t).view.emb (ix2 u q) = ix2 u q := by
  obtain ⟨-, -, -, -, e4, e5, -⟩ := idx_facts t
  funext a; apply Fin.ext
  match a with
  | ⟨0, _⟩ => show win0_2.index t (0 : Fin 2) * 1 + 1 * u.val = u.val; omega
  | ⟨1, _⟩ => show win0_2.index t (1 : Fin 2) * 32 + 1 * q.val = q.val; omega

theorem emb3 (t : Fin cfg0.N) (p : Fin 8000) (q : Fin 32) : ((cfg0.win 3).blk t).view.emb (ix2 p q) = ix2 (row t p) q := by
  obtain ⟨-, -, -, -, -, -, e6, e7⟩ := idx_facts t
  funext a; apply Fin.ext
  match a with
  | ⟨0, _⟩ => show win0_3.index t (0 : Fin 2) * 8000 + 1 * p.val = t.val * 8000 + p.val; omega
  | ⟨1, _⟩ => show win0_3.index t (1 : Fin 2) * 32 + 1 * q.val = q.val; omega

/-- Point t's block of the layer: the payload on the blocks of three arrays is the layer of the arrays at the block's rows. -/
theorem blk_eq (e : FVec Ideal S800000x32 .f32) (W : FVec Ideal S32x32 .f32) (b : FVec Ideal S1x32 .f32) (t : Fin cfg0.N) (p : Fin 8000) (q : Fin 32) :
    k0_pay1 (F := Ideal) (fun y => e (((cfg0.win 0).blk t).view.emb y)) (fun y => W (((cfg0.win 1).blk t).view.emb y))
        (fun y => b (((cfg0.win 2).blk t).view.emb y)) (ix2 p q)
      = linA e W b (ix2 (row t p) q) := by
  rw [pay_apply, linA_apply]
  refine congrArg₂ (· + ·) (Finset.sum_congr rfl fun k _ => ?_) ?_
  · show (e (((cfg0.win 0).blk t).view.emb (ix2 p k)) + e (((cfg0.win 0).blk t).view.emb (ix2 p k)))
        * W (((cfg0.win 1).blk t).view.emb (ix2 q k)) = _
    rw [emb0, emb1]
  · show b (((cfg0.win 2).blk t).view.emb (ix2 (0 : Fin 1) q)) = _
    rw [emb2]

variable (V : (c : Dev nD) → (b : Ref sig .tc) → Buf (Elt Ideal) ((c : Thread nD τ).loc b))

/-- What point t writes back is block t of the layer applied to the arrays the region is entered with. -/
theorem flushed_eq (c : Dev nD) (t : Fin cfg0.N) :
    (dat0 V c).flushed 3 t = ((cfg0.win 3).blk t).view.read (Elt Ideal) (linA (V c main_v0) (V c main_arg4) (V c main_v8)) := by
  show (cfg0.win 3).cut (grid0.coords t) ((dat0 V c).after 3 t) = _
  rw [after0_3]
  unfold out0_3
  rw [View.canon_unit_zero hz]
  simp only [View.ld_unit_zero (S := S8000x32) hz, View.ld_unit_zero (S := S32x32) hz, View.ld_unit_zero (S := S1x32) hz]
  funext j
  obtain ⟨p, q, rfl⟩ : ∃ (p : Fin 8000) (q : Fin 32), j = ix2 p q := ⟨j 0, j 1, eq_ix2 j⟩
  show k0_pay1 (F := Ideal) (iblk0 V c 0 t) (iblk0 V c 1 t) (iblk0 V c 2 t) (ix2 p q)
    = linA (V c main_v0) (V c main_arg4) (V c main_v8) (((cfg0.win 3).blk t).view.emb (ix2 p q))
  rw [emb3]
  exact blk_eq (V c main_v0) (V c main_arg4) (V c main_v8) t p q

/-- An index of the output array is in point t's block iff each coordinate is in the block's range. -/
theorem mem_blk (t : Fin cfg0.N) (i : S800000x32.Idx) :
    i ∈ ((cfg0.win 3).blk t).view.set ↔ ∀ a : Fin 2, win0_3.index t a * S8000x32.size a ≤ (i a).val ∧ (i a).val < win0_3.index t a * S8000x32.size a + S8000x32.size a := by
  show i ∈ ((View.whole main_v9).slice (win0_3.rect t)).set ↔ _
  rw [View.set_slice_whole, Rect.mem_set_unit]
  exact Iff.rfl

/-- Every row of the output lies in the block of the point numbered by the row's quotient by 8000. -/
theorem cover (i : S800000x32.Idx) : ∃ t : Fin cfg0.N, (cfg0.win 3).flush t = true ∧ i ∈ ((cfg0.win 3).blk t).view.set := by
  have hi0 : (i 0).val < 800000 := (i 0).isLt
  have hi1 : (i 1).val < 32 := (i 1).isLt
  refine ⟨⟨(i 0).val / 8000, by show (i 0).val / 8000 < 100; omega⟩, flush0_3 _, ?_⟩
  rw [mem_blk]
  obtain ⟨-, -, -, -, -, -, e6, e7⟩ := idx_facts ⟨(i 0).val / 8000, by show (i 0).val / 8000 < 100; omega⟩
  intro a
  match a with
  | ⟨0, _⟩ =>
    show win0_3.index _ (0 : Fin 2) * 8000 ≤ (i 0).val ∧ (i 0).val < win0_3.index _ (0 : Fin 2) * 8000 + 8000
    rw [e6]; show (i 0).val / 8000 * 8000 ≤ (i 0).val ∧ (i 0).val < (i 0).val / 8000 * 8000 + 8000; omega
  | ⟨1, _⟩ =>
    show win0_3.index _ (1 : Fin 2) * 32 ≤ (i 1).val ∧ (i 1).val < win0_3.index _ (1 : Fin 2) * 32 + 32
    rw [e7]; omega

/-- The output array after the region: the layer applied to the arrays the region is entered with. -/
theorem final (c : Dev nD) : (dat0 V c).arrAt 3 cfg0.N = linA (V c main_v0) (V c main_arg4) (V c main_v8) :=
  (dat0 V c).arrAt_eq_of_cover 3 _ (fun t _ => flushed_eq V c t) cover

end Cert.KernelIdeal.StageA

end
-- ==== Proof.StageB.lean ====
/-
  The second layer's kernel, read as one function of the arrays it is launched on.

  Each of its 100 grid points takes 8000 rows of the gathered node features h [800000, 32] and of the edge features
  e [800000, 32], multiplies them by the two halves wh, we [32, 128] of the weight matrix, adds the two products and the
  bias row b [1, 128]; point t writes rows 8000·t … 8000·t + 7999 of the output. So the output array is, at (r, j),
  (Σ_k h(r,k) · wh(k,j) + Σ_k e(r,k) · we(k,j)) + b(0,j), for any contents `V` the region is entered with.
-/
import proofs.«101331_j30245159698931_2_alg».proof.Proof.Gen.KernelIdeal.Frame
import proofs.«101331_j30245159698931_2_alg».proof.Proof.LibPlainDot
import proofs.«101331_j30245159698931_2_alg».proof.Proof.Forms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.StageB

open Cert.Forms Cert.KernelIdeal Cert.KernelIdeal.Gen Idealize.ShloMosaic Idealize.ShloMosaic.TcCoe Idealize.ShloMosaic.ValueIdx Idealize.SL.Sem
open Idealize.ShloMosaic.Pipeline (Dat Cfg Window)

/-- The tile products' dimension numbers are those of a plain [8000, 32] × [32, 128] product. -/
theorem plain : PlainDot.IsPlain dot_S8000x32_S32x128_S8000x128_1_0_0_1_n_n where
  rank := rfl
  size := rfl
  lhs0 := fun i q => by
    unfold DotDims.lhsIdx
    rw [dif_neg (show ¬(0 : Fin S8000x32.rank) ∈ dot_S8000x32_S32x128_S8000x128_1_0_0_1_n_n.lhsBatch by decide), dif_pos (show (0 : Fin S8000x32.rank) ∈ dot_S8000x32_S32x128_S8000x128_1_0_0_1_n_n.lhsNonContracting by decide)]
    rfl
  lhs1 := fun i q => dot_S8000x32_S32x128_S8000x128_1_0_0_1_n_n.lhsIdx_val_of_single rfl i q
  rhs0 := fun i q => dot_S8000x32_S32x128_S8000x128_1_0_0_1_n_n.rhsIdx_val_of_single rfl i q
  rhs1 := fun i q => by
    unfold DotDims.rhsIdx
    rw [dif_neg (show ¬(1 : Fin S32x128.rank) ∈ dot_S8000x32_S32x128_S8000x128_1_0_0_1_n_n.rhsBatch by decide), dif_pos (show (1 : Fin S32x128.rank) ∈ dot_S8000x32_S32x128_S8000x128_1_0_0_1_n_n.rhsNonContracting by decide)]
    rfl

/-- What one grid point computes from its blocks, at (p, q) of the block. -/
theorem pay_apply (x0 x1 : Vec Ideal S8000x32 .f32) (x2 x3 : Vec Ideal S32x128 .f32) (x4 : Vec Ideal S1x128 .f32) (p : Fin 8000) (q : Fin 128) :
    k1_pay1 (F := Ideal) x0 x1 x2 x3 x4 (ix2 p q)
      = ((∑ k : Fin 32, x0 (ix2 p k) * x2 (ix2 k q)) + ∑ k : Fin 32, x1 (ix2 p k) * x3 (ix2 k q)) + x4 (ix2 (0 : Fin 1) q) := by
  unfold k1_pay1
  rw [addf_apply, addf_apply]
  refine congrArg₂ (· + ·) (congrArg₂ (· + ·)
      ((PlainDot.matmul_zero_apply _ plain none _ _ p q).trans (Finset.sum_congr rfl fun k _ => ?_))
      ((PlainDot.matmul_zero_apply _ plain none _ _ p q).trans (Finset.sum_congr rfl fun k _ => ?_)))
    ((broadcastTo_1b_ab_apply _ _ p q).trans ?_)
  · simp only [truncf_apply, shapeCast_self]
  · simp only [truncf_apply, shapeCast_self]
  · rw [shapeCast_self]

theorem hz : (![0, 0] : Fin 2 → Nat) = fun _ => 0 := funext fun a => by fin_cases a <;> rfl

/-- The printed index maps over the grid: the row blocks move with the point, the weights and the bias stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of point t's block is row 8000·t + p of the array. -/
def row (t : Fin cfg1.N) (p : Fin 8000) : Fin 800000 := ⟨t.val * 8000 + p.val, by
  have ht : t.val < 100 := t.isLt
  have hp := p.isLt
  omega⟩

theorem emb0 (t : Fin cfg1.N) (p : Fin 8000) (k : Fin 32) : ((cfg1.win 0).blk t).view.emb (ix2 p k) = ix2 (row t p) k := by
  obtain ⟨e0, e1, -⟩ := idx_facts t
  funext a; apply Fin.ext
  match a with
  | ⟨0, _⟩ => show win1_0.index t (0 : Fin 2) * 8000 + 1 * p.val = t.val * 8000 + p.val; omega
  | ⟨1, _⟩ => show win1_0.index t (1 : Fin 2) * 32 + 1 * k.val = k.val; omega

theorem emb1 (t : Fin cfg1.N) (p : Fin 8000) (k : Fin 32) : ((cfg1.win 1).blk t).view.emb (ix2 p k) = ix2 (row t p) k := by
  obtain ⟨-, -, e0, e1, -⟩ := idx_facts t
  funext a; apply Fin.ext
  match a with
  | ⟨0, _⟩ => show win1_1.index t (0 : Fin 2) * 8000 + 1 * p.val = t.val * 8000 + p.val; omega
  | ⟨1, _⟩ => show win1_1.index t (1 : Fin 2) * 32 + 1 * k.val = k.val; omega

theorem emb2 (t : Fin cfg1.N) (k : Fin 32) (q : Fin 128) : ((cfg1.win 2).blk t).view.emb (ix2 k q) = ix2 k q := by
  obtain ⟨-, -, -, -, e0, e1, -⟩ := idx_facts t
  funext a; apply Fin.ext
  match a with
  | ⟨0, _⟩ => show win1_2.index t (0 : Fin 2) * 32 + 1 * k.val = k.val; omega
  | ⟨1, _⟩ => show win1_2.index t (1 : Fin 2) * 128 + 1 * q.val = q.val; omega

theorem emb3 (t : Fin cfg1.N) (k : Fin 32) (q : Fin 128) : ((cfg1.win 3).blk t).view.emb (ix2 k q) = ix2 k q := by
  obtain ⟨-, -, -, -, -, -, e0, e1, -⟩ := idx_facts t
  funext a; apply Fin.ext
  match a with
  | ⟨0, _⟩ => show win1_3.index t (0 : Fin 2) * 32 + 1 * k.val = k.val; omega
  | ⟨1, _⟩ => show win1_3.index t (1 : Fin 2) * 128 + 1 * q.val = q.val; omega

theorem emb4 (t : Fin cfg1.N) (u : Fin 1) (q : Fin 128) : ((cfg1.win 4).blk t).view.emb (ix2 u q) = ix2 u q := by
  obtain ⟨-, -, -, -, -, -, -, -, e0, e1, -⟩ := idx_facts t
  funext a; apply Fin.ext
  match a with
  | ⟨0, _⟩ => show win1_4.index t (0 : Fin 2) * 1 + 1 * u.val = u.val; omega
  | ⟨1, _⟩ => show win1_4.index t (1 : Fin 2) * 128 + 1 * q.val = q.val; omega

theorem emb5 (t : Fin cfg1.N) (p : Fin 8000) (q : Fin 128) : ((cfg1.win 5).blk t).view.emb (ix2 p q) = ix2 (row t p) q := by
  obtain ⟨-, -, -, -, -, -, -, -, -, -, e0, e1⟩ := idx_facts t
  funext a; apply Fin.ext
  match a with
  | ⟨0, _⟩ => show win1_5.index t (0 : Fin 2) * 8000 + 1 * p.val = t.val * 8000 + p.val; omega
  | ⟨1, _⟩ => show win1_5.index t (1 : Fin 2) * 128 + 1 * q.val = q.val; omega

/-- Point t's block of the layer: the payload on the blocks of five arrays is the layer of the arrays at the block's rows. -/
theorem blk_eq (h e : FVec Ideal S800000x32 .f32) (wh we : FVec Ideal S32x128 .f32) (b : FVec Ideal S1x128 .f32) (t : Fin cfg1.N) (p : Fin 8000) (q : Fin 128) :
    k1_pay1 (F := Ideal) (fun y => h (((cfg1.win 0).blk t).view.emb y)) (fun y => e (((cfg1.win 1).blk t).view.emb y)) (fun y => wh (((cfg1.win 2).blk t).view.emb y))
        (fun y => we (((cfg1.win 3).blk t).view.emb y)) (fun y => b (((cfg1.win 4).blk t).view.emb y)) (ix2 p q)
      = linB h e wh we b (ix2 (row t p) q) := by
  rw [pay_apply, linB_apply]
  refine congrArg₂ (· + ·) (congrArg₂ (· + ·) (Finset.sum_congr rfl fun k _ => ?_) (Finset.sum_congr rfl fun k _ => ?_)) ?_
  · show h (((cfg1.win 0).blk t).view.emb (ix2 p k)) * wh (((cfg1.win 2).blk t).view.emb (ix2 k q)) = _
    rw [emb0, emb2]
  · show e (((cfg1.win 1).blk t).view.emb (ix2 p k)) * we (((cfg1.win 3).blk t).view.emb (ix2 k q)) = _
    rw [emb1, emb3]
  · show b (((cfg1.win 4).blk t).view.emb (ix2 (0 : Fin 1) q)) = _
    rw [emb4]

variable (V : (c : Dev nD) → (b : Ref sig .tc) → Buf (Elt Ideal) ((c : Thread nD τ).loc b))

/-- What point t writes back is block t of the layer applied to the arrays the region is entered with. -/
theorem flushed_eq (c : Dev nD) (t : Fin cfg1.N) :
    (dat1 V c).flushed 5 t = ((cfg1.win 5).blk t).view.read (Elt Ideal)
      (linB (V c main_v22) (V c main_v0) (V c main_v24) (V c main_v26) (V c main_v27)) := by
  show (cfg1.win 5).cut (grid1.coords t) ((dat1 V c).after 5 t) = _
  rw [after1_5]
  unfold out1_5
  rw [View.canon_unit_zero hz]
  simp only [View.ld_unit_zero (S := S8000x32) hz, View.ld_unit_zero (S := S32x128) hz, View.ld_unit_zero (S := S1x128) hz]
  funext j
  obtain ⟨p, q, rfl⟩ : ∃ (p : Fin 8000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = linB (V c main_v22) (V c main_v0) (V c main_v24) (V c main_v26) (V c main_v27) (((cfg1.win 5).blk t).view.emb (ix2 p q))
  rw [emb5]
  exact blk_eq (V c main_v22) (V c main_v0) (V c main_v24) (V c main_v26) (V c main_v27) t p q

/-- An index of the output array is in point t's block iff each coordinate is in the block's range. -/
theorem mem_blk (t : Fin cfg1.N) (i : S800000x128.Idx) :
    i ∈ ((cfg1.win 5).blk t).view.set ↔ ∀ a : Fin 2, win1_5.index t a * S8000x128.size a ≤ (i a).val ∧ (i a).val < win1_5.index t a * S8000x128.size a + S8000x128.size a := by
  show i ∈ ((View.whole main_v28).slice (win1_5.rect t)).set ↔ _
  rw [View.set_slice_whole, Rect.mem_set_unit]
  exact Iff.rfl

/-- Every row of the output lies in the block of the point numbered by the row's quotient by 8000. -/
theorem cover (i : S800000x128.Idx) : ∃ t : Fin cfg1.N, (cfg1.win 5).flush t = true ∧ i ∈ ((cfg1.win 5).blk t).view.set := by
  have hi0 : (i 0).val < 800000 := (i 0).isLt
  have hi1 : (i 1).val < 128 := (i 1).isLt
  refine ⟨⟨(i 0).val / 8000, by show (i 0).val / 8000 < 100; omega⟩, flush1_5 _, ?_⟩
  rw [mem_blk]
  obtain ⟨-, -, -, -, -, -, -, -, -, -, e6, e7⟩ := idx_facts ⟨(i 0).val / 8000, by show (i 0).val / 8000 < 100; omega⟩
  intro a
  match a with
  | ⟨0, _⟩ =>
    show win1_5.index _ (0 : Fin 2) * 8000 ≤ (i 0).val ∧ (i 0).val < win1_5.index _ (0 : Fin 2) * 8000 + 8000
    rw [e6]; show (i 0).val / 8000 * 8000 ≤ (i 0).val ∧ (i 0).val < (i 0).val / 8000 * 8000 + 8000; omega
  | ⟨1, _⟩ =>
    show win1_5.index _ (1 : Fin 2) * 128 ≤ (i 1).val ∧ (i 1).val < win1_5.index _ (1 : Fin 2) * 128 + 128
    rw [e7]; omega

/-- The output array after the region: the layer applied to the arrays the region is entered with. -/
theorem final (c : Dev nD) : (dat1 V c).arrAt 5 cfg1.N = linB (V c main_v22) (V c main_v0) (V c main_v24) (V c main_v26) (V c main_v27) :=
  (dat1 V c).arrAt_eq_of_cover 5 _ (fun t _ => flushed_eq V c t) cover

end Cert.KernelIdeal.StageB

end
-- ==== Proof.StageC.lean ====
/-
  The node update's kernel, read as one function of the arrays it is launched on.

  Each of its 5 grid points takes 10000 rows of the aggregated features x [50000, 128], doubles them, multiplies by the
  transposed weight matrix W [128, 128], adds the bias row b [1, 128] and keeps the positive part; point t writes rows
  10000·t … 10000·t + 9999 of the output. So the output array is, at (r, j),
  max (Σ_k (x(r,k) + x(r,k)) · W(j,k) + b(0,j)) 0, for any contents `V` the region is entered with.
-/
import proofs.«101331_j30245159698931_2_alg».proof.Proof.Gen.KernelIdeal.Frame
import proofs.«101331_j30245159698931_2_alg».proof.Proof.LibPlainDot
import proofs.«101331_j30245159698931_2_alg».proof.Proof.Forms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.StageC

open Cert.Forms Cert.KernelIdeal Cert.KernelIdeal.Gen Idealize.ShloMosaic Idealize.ShloMosaic.TcCoe Idealize.ShloMosaic.ValueIdx Idealize.SL.Sem
open Idealize.ShloMosaic.Pipeline (Dat Cfg Window)

/-- The tile product's dimension numbers are those of a plain [10000, 128] × [128, 128] product. -/
theorem plain : PlainDot.IsPlain dot_S10000x128_S128x128_S10000x128_1_0_0_1_n_n where
  rank := rfl
  size := rfl
  lhs0 := fun i q => by
    unfold DotDims.lhsIdx
    rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
    rfl
  lhs1 := fun i q => dot_S10000x128_S128x128_S10000x128_1_0_0_1_n_n.lhsIdx_val_of_single rfl i q
  rhs0 := fun i q => dot_S10000x128_S128x128_S10000x128_1_0_0_1_n_n.rhsIdx_val_of_single rfl i q
  rhs1 := fun i q => by
    unfold DotDims.rhsIdx
    rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
    rfl

/-- What one grid point computes from its blocks, at (p, q) of the block. -/
theorem pay_apply (x0 : Vec Ideal S10000x128 .f32) (x1 : Vec Ideal S128x128 .f32) (x2 : Vec Ideal S1x128 .f32) (p : Fin 10000) (q : Fin 128) :
    k2_pay1 (F := Ideal) x0 x1 x2 (ix2 p q)
      = max ((∑ k : Fin 128, (x0 (ix2 p k) + x0 (ix2 p k)) * x1 (ix2 q k)) + x2 (ix2 (0 : Fin 1) q)) zero := by
  unfold k2_pay1
  rw [maximumf_apply, addf_apply]
  refine congrArg₂ max (congrArg₂ (· + ·) ((PlainDot.matmul_zero_apply _ plain none _ _ p q).trans (Finset.sum_congr rfl fun k _ => ?_))
      ((broadcastTo_1b_ab_apply _ _ p q).trans ?_)) rfl
  · refine congrArg₂ (· * ·) ?_ ((transpose_ix2_apply _ _ k q).trans ?_)
    · simp only [truncf_apply, addf_apply, shapeCast_self]
    · rw [truncf_apply]
  · rw [shapeCast_self]

theorem hz : (![0, 0] : Fin 2 → Nat) = fun _ => 0 := funext fun a => by fin_cases a <;> rfl

/-- The printed index maps over the grid: the row blocks move with the point, the weights and the bias stay. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of point t's block is row 10000·t + p of the array. -/
def row (t : Fin cfg2.N) (p : Fin 10000) : Fin 50000 := ⟨t.val * 10000 + p.val, by
  have ht : t.val < 5 := t.isLt
  have hp := p.isLt
  omega⟩

theorem emb0 (t : Fin cfg2.N) (p : Fin 10000) (k : Fin 128) : ((cfg2.win 0).blk t).view.emb (ix2 p k) = ix2 (row t p) k := by
  obtain ⟨e0, e1, -⟩ := idx_facts t
  funext a; apply Fin.ext
  match a with
  | ⟨0, _⟩ => show win2_0.index t (0 : Fin 2) * 10000 + 1 * p.val = t.val * 10000 + p.val; omega
  | ⟨1, _⟩ => show win2_0.index t (1 : Fin 2) * 128 + 1 * k.val = k.val; omega

theorem emb1 (t : Fin cfg2.N) (q k : Fin 128) : ((cfg2.win 1).blk t).view.emb (ix2 q k) = ix2 q k := by
  obtain ⟨-, -, e2, e3, -⟩ := idx_facts t
  funext a; apply Fin.ext
  match a with
  | ⟨0, _⟩ => show win2_1.index t (0 : Fin 2) * 128 + 1 * q.val = q.val; omega
  | ⟨1, _⟩ => show win2_1.index t (1 : Fin 2) * 128 + 1 * k.val = k.val; omega

theorem emb2 (t : Fin cfg2.N) (u : Fin 1) (q : Fin 128) : ((cfg2.win 2).blk t).view.emb (ix2 u q) = ix2 u q := by
  obtain ⟨-, -, -, -, e4, e5, -⟩ := idx_facts t
  funext a; apply Fin.ext
  match a with
  | ⟨0, _⟩ => show win2_2.index t (0 : Fin 2) * 1 + 1 * u.val = u.val; omega
  | ⟨1, _⟩ => show win2_2.index t (1 : Fin 2) * 128 + 1 * q.val = q.val; omega

theorem emb3 (t : Fin cfg2.N) (p : Fin 10000) (q : Fin 128) : ((cfg2.win 3).blk t).view.emb (ix2 p q) = ix2 (row t p) q := by
  obtain ⟨-, -, -, -, -, -, e6, e7⟩ := idx_facts t
  funext a; apply Fin.ext
  match a with
  | ⟨0, _⟩ => show win2_3.index t (0 : Fin 2) * 10000 + 1 * p.val = t.val * 10000 + p.val; omega
  | ⟨1, _⟩ => show win2_3.index t (1 : Fin 2) * 128 + 1 * q.val = q.val; omega

/-- Point t's block of the update: the payload on the blocks of three arrays is the update of the arrays at the block's rows. -/
theorem blk_eq (x : FVec Ideal S50000x128 .f32) (W : FVec Ideal S128x128 .f32) (b : FVec Ideal S1x128 .f32) (t : Fin cfg2.N) (p : Fin 10000) (q : Fin 128) :
    k2_pay1 (F := Ideal) (fun y => x (((cfg2.win 0).blk t).view.emb y)) (fun y => W (((cfg2.win 1).blk t).view.emb y)) (fun y => b (((cfg2.win 2).blk t).view.emb y)) (ix2 p q)
      = linC x W b (ix2 (row t p) q) := by
  rw [pay_apply, linC_apply]
  refine congrArg₂ max (congrArg₂ (· + ·) (Finset.sum_congr rfl fun k _ => ?_) ?_) rfl
  · show (x (((cfg2.win 0).blk t).view.emb (ix2 p k)) + x (((cfg2.win 0).blk t).view.emb (ix2 p k))) * W (((cfg2.win 1).blk t).view.emb (ix2 q k)) = _
    rw [emb0, emb1]
  · show b (((cfg2.win 2).blk t).view.emb (ix2 (0 : Fin 1) q)) = _
    rw [emb2]

variable (V : (c : Dev nD) → (b : Ref sig .tc) → Buf (Elt Ideal) ((c : Thread nD τ).loc b))

/-- What point t writes back is block t of the update applied to the arrays the region is entered with. -/
theorem flushed_eq (c : Dev nD) (t : Fin cfg2.N) :
    (dat2 V c).flushed 3 t = ((cfg2.win 3).blk t).view.read (Elt Ideal) (linC (V c main_v33) (V c main_arg8) (V c main_v34)) := by
  show (cfg2.win 3).cut (grid2.coords t) ((dat2 V c).after 3 t) = _
  rw [after2_3]
  unfold out2_3
  rw [View.canon_unit_zero hz]
  simp only [View.ld_unit_zero (S := S10000x128) hz, View.ld_unit_zero (S := S128x128) hz, View.ld_unit_zero (S := S1x128) hz]
  funext j
  obtain ⟨p, q, rfl⟩ : ∃ (p : Fin 10000) (q : Fin 128), j = ix2 p q := ⟨j 0, j 1, eq_ix2 j⟩
  show k2_pay1 (F := Ideal) (iblk2 V c 0 t) (iblk2 V c 1 t) (iblk2 V c 2 t) (ix2 p q)
    = linC (V c main_v33) (V c main_arg8) (V c main_v34) (((cfg2.win 3).blk t).view.emb (ix2 p q))
  rw [emb3]
  exact blk_eq (V c main_v33) (V c main_arg8) (V c main_v34) t p q

/-- An index of the output array is in point t's block iff each coordinate is in the block's range. -/
theorem mem_blk (t : Fin cfg2.N) (i : S50000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v35).slice (win2_3.rect t)).set ↔ _
  rw [View.set_slice_whole, Rect.mem_set_unit]
  exact Iff.rfl

/-- Every row of the output lies in the block of the point numbered by the row's quotient by 10000. -/
theorem cover (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  refine ⟨⟨(i 0).val / 10000, by show (i 0).val / 10000 < 5; omega⟩, flush2_3 _, ?_⟩
  rw [mem_blk]
  obtain ⟨-, -, -, -, -, -, e6, e7⟩ := idx_facts ⟨(i 0).val / 10000, by show (i 0).val / 10000 < 5; omega⟩
  intro a
  match a with
  | ⟨0, _⟩ =>
    show win2_3.index _ (0 : Fin 2) * 10000 ≤ (i 0).val ∧ (i 0).val < win2_3.index _ (0 : Fin 2) * 10000 + 10000
    rw [e6]; show (i 0).val / 10000 * 10000 ≤ (i 0).val ∧ (i 0).val < (i 0).val / 10000 * 10000 + 10000; omega
  | ⟨1, _⟩ =>
    show win2_3.index _ (1 : Fin 2) * 128 ≤ (i 1).val ∧ (i 1).val < win2_3.index _ (1 : Fin 2) * 128 + 128
    rw [e7]; omega

/-- The output array after the region: the update applied to the arrays the region is entered with. -/
theorem final (c : Dev nD) : (dat2 V c).arrAt 3 cfg2.N = linC (V c main_v33) (V c main_arg8) (V c main_v34) :=
  (dat2 V c).arrAt_eq_of_cover 3 _ (fun t _ => flushed_eq V c t) cover

end Cert.KernelIdeal.StageC

end
-- ==== Proof.StageD.lean ====
/-
  The edge predictor's kernel, read as one function of the arrays it is launched on.

  Each of its 100 grid points takes 8000 rows of the two gathered endpoint features s, d [800000, 128] and of the edge
  features e [800000, 32]; it forms s·10 + d·10, forms e·W₁ᵀ + b₁ with W₁ [128, 32] and b₁ [1, 128], multiplies the first
  by wc [128, 8], the second by we [128, 8], and adds the two products and the bias row b [1, 8]; point t writes rows
  8000·t … 8000·t + 7999 of the output. So the output array is, at (r, j),
  (Σ_k (s(r,k)·10 + d(r,k)·10) · wc(k,j) + Σ_k (Σ_l e(r,l) · W₁(k,l) + b₁(0,k)) · we(k,j)) + b(0,j),
  for any contents `V` the region is entered with.
-/
import proofs.«101331_j30245159698931_2_alg».proof.Proof.Gen.KernelIdeal.Frame
import proofs.«101331_j30245159698931_2_alg».proof.Proof.LibPlainDot
import proofs.«101331_j30245159698931_2_alg».proof.Proof.Forms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.StageD

open Cert.Forms Cert.KernelIdeal Cert.KernelIdeal.Gen Idealize.ShloMosaic Idealize.ShloMosaic.TcCoe Idealize.ShloMosaic.ValueIdx Idealize.SL.Sem
open Idealize.ShloMosaic.Pipeline (Dat Cfg Window)

/-- The inner product's dimension numbers are those of a plain [8000, 32] × [32, 128] product. -/
theorem plainE : PlainDot.IsPlain dot_S8000x32_S32x128_S8000x128_1_0_0_1_n_n where
  rank := rfl
  size := rfl
  lhs0 := fun i q => by
    unfold DotDims.lhsIdx
    rw [dif_neg (show ¬(0 : Fin S8000x32.rank) ∈ dot_S8000x32_S32x128_S8000x128_1_0_0_1_n_n.lhsBatch by decide), dif_pos (show (0 : Fin S8000x32.rank) ∈ dot_S8000x32_S32x128_S8000x128_1_0_0_1_n_n.lhsNonContracting by decide)]
    rfl
  lhs1 := fun i q => dot_S8000x32_S32x128_S8000x128_1_0_0_1_n_n.lhsIdx_val_of_single rfl i q
  rhs0 := fun i q => dot_S8000x32_S32x128_S8000x128_1_0_0_1_n_n.rhsIdx_val_of_single rfl i q
  rhs1 := fun i q => by
    unfold DotDims.rhsIdx
    rw [dif_neg (show ¬(1 : Fin S32x128.rank) ∈ dot_S8000x32_S32x128_S8000x128_1_0_0_1_n_n.rhsBatch by decide), dif_pos (show (1 : Fin S32x128.rank) ∈ dot_S8000x32_S32x128_S8000x128_1_0_0_1_n_n.rhsNonContracting by decide)]
    rfl

/-- The outer products' dimension numbers are those of a plain [8000, 128] × [128, 8] product. -/
theorem plainO : PlainDot.IsPlain dot_S8000x128_S128x8_S8000x8_1_0_0_1_n_n where
  rank := rfl
  size := rfl
  lhs0 := fun i q => by
    unfold DotDims.lhsIdx
    rw [dif_neg (show ¬(0 : Fin S8000x128.rank) ∈ dot_S8000x128_S128x8_S8000x8_1_0_0_1_n_n.lhsBatch by decide), dif_pos (show (0 : Fin S8000x128.rank) ∈ dot_S8000x128_S128x8_S8000x8_1_0_0_1_n_n.lhsNonContracting by decide)]
    rfl
  lhs1 := fun i q => dot_S8000x128_S128x8_S8000x8_1_0_0_1_n_n.lhsIdx_val_of_single rfl i q
  rhs0 := fun i q => dot_S8000x128_S128x8_S8000x8_1_0_0_1_n_n.rhsIdx_val_of_single rfl i q
  rhs1 := fun i q => by
    unfold DotDims.rhsIdx
    rw [dif_neg (show ¬(1 : Fin S128x8.rank) ∈ dot_S8000x128_S128x8_S8000x8_1_0_0_1_n_n.rhsBatch by decide), dif_pos (show (1 : Fin S128x8.rank) ∈ dot_S8000x128_S128x8_S8000x8_1_0_0_1_n_n.rhsNonContracting by decide)]
    rfl

/-- What one grid point computes from its blocks, at (p, q) of the block. -/
theorem pay_apply (x0 x1 : Vec Ideal S8000x128 .f32) (x2 : Vec Ideal S8000x32 .f32) (x3 : Vec Ideal S128x32 .f32) (x4 : Vec Ideal S1x128 .f32)
    (x5 x6 : Vec Ideal S128x8 .f32) (x7 : Vec Ideal S1x8 .f32) (p : Fin 8000) (q : Fin 8) :
    k3_pay1 (F := Ideal) x0 x1 x2 x3 x4 x5 x6 x7 (ix2 p q)
      = ((∑ k : Fin 128, (x0 (ix2 p k) * ten + x1 (ix2 p k) * ten) * x5 (ix2 k q))
          + ∑ k : Fin 128, ((∑ l : Fin 32, x2 (ix2 p l) * x3 (ix2 k l)) + x4 (ix2 (0 : Fin 1) k)) * x6 (ix2 k q))
          + x7 (ix2 (0 : Fin 1) q) := by
  unfold k3_pay1
  rw [addf_apply, addf_apply]
  refine congrArg₂ (· + ·) (congrArg₂ (· + ·)
      ((PlainDot.matmul_zero_apply _ plainO none _ _ p q).trans (Finset.sum_congr rfl fun k _ => ?_))
      ((PlainDot.matmul_zero_apply _ plainO none _ _ p q).trans (Finset.sum_congr rfl fun k _ => ?_)))
    ((broadcastTo_1b_ab_apply _ _ p q).trans ?_)
  · simp only [truncf_apply, addf_apply, mulf_apply, shapeCast_self, broadcast_apply]
    rfl
  · refine congrArg₂ (· * ·) ?_ ?_
    · rw [truncf_apply, addf_apply]
      refine congrArg₂ (· + ·) ((PlainDot.matmul_zero_apply _ plainE none _ _ p k).trans (Finset.sum_congr rfl fun l _ => ?_))
        ((broadcastTo_1b_ab_apply _ _ p k).trans ?_)
      · refine congrArg₂ (· * ·) ?_ ((transpose_ix2_apply _ _ l k).trans ?_)
        · simp only [truncf_apply, shapeCast_self]
        · rw [truncf_apply]
      · rw [shapeCast_self]
    · simp only [truncf_apply, shapeCast_self]
  · rw [shapeCast_self]

theorem hz : (![0, 0] : Fin 2 → Nat) = fun _ => 0 := funext fun a => by fin_cases a <;> rfl

/-- The printed index maps over the grid: the three row blocks and the output move with the point, the rest stay. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

/-- Row p of point t's block is row 8000·t + p of the array. -/
def row (t : Fin cfg3.N) (p : Fin 8000) : Fin 800000 := ⟨t.val * 8000 + p.val, by
  have ht : t.val < 100 := t.isLt
  have hp := p.isLt
  omega⟩

theorem emb0 (t : Fin cfg3.N) (p : Fin 8000) (k : Fin 128) : ((cfg3.win 0).blk t).view.emb (ix2 p k) = ix2 (row t p) k := by
  obtain ⟨e0, e1, -⟩ := idx_facts t
  funext a; apply Fin.ext
  match a with
  | ⟨0, _⟩ => show win3_0.index t (0 : Fin 2) * 8000 + 1 * p.val = t.val * 8000 + p.val; omega
  | ⟨1, _⟩ => show win3_0.index t (1 : Fin 2) * 128 + 1 * k.val = k.val; omega

theorem emb1 (t : Fin cfg3.N) (p : Fin 8000) (k : Fin 128) : ((cfg3.win 1).blk t).view.emb (ix2 p k) = ix2 (row t p) k := by
  obtain ⟨-, -, e0, e1, -⟩ := idx_facts t
  funext a; apply Fin.ext
  match a with
  | ⟨0, _⟩ => show win3_1.index t (0 : Fin 2) * 8000 + 1 * p.val = t.val * 8000 + p.val; omega
  | ⟨1, _⟩ => show win3_1.index t (1 : Fin 2) * 128 + 1 * k.val = k.val; omega

theorem emb2 (t : Fin cfg3.N) (p : Fin 8000) (l : Fin 32) : ((cfg3.win 2).blk t).view.emb (ix2 p l) = ix2 (row t p) l := by
  obtain ⟨-, -, -, -, e0, e1, -⟩ := idx_facts t
  funext a; apply Fin.ext
  match a with
  | ⟨0, _⟩ => show win3_2.index t (0 : Fin 2) * 8000 + 1 * p.val = t.val * 8000 + p.val; omega
  | ⟨1, _⟩ => show win3_2.index t (1 : Fin 2) * 32 + 1 * l.val = l.val; omega

theorem emb3 (t : Fin cfg3.N) (k : Fin 128) (l : Fin 32) : ((cfg3.win 3).blk t).view.emb (ix2 k l) = ix2 k l := by
  obtain ⟨-, -, -, -, -, -, e0, e1, -⟩ := idx_facts t
  funext a; apply Fin.ext
  match a with
  | ⟨0, _⟩ => show win3_3.index t (0 : Fin 2) * 128 + 1 * k.val = k.val; omega
  | ⟨1, _⟩ => show win3_3.index t (1 : Fin 2) * 32 + 1 * l.val = l.val; omega

theorem emb4 (t : Fin cfg3.N) (u : Fin 1) (k : Fin 128) : ((cfg3.win 4).blk t).view.emb (ix2 u k) = ix2 u k := by
  obtain ⟨-, -, -, -, -, -, -, -, e0, e1, -⟩ := idx_facts t
  funext a; apply Fin.ext
  match a with
  | ⟨0, _⟩ => show win3_4.index t (0 : Fin 2) * 1 + 1 * u.val = u.val; omega
  | ⟨1, _⟩ => show win3_4.index t (1 : Fin 2) * 128 + 1 * k.val = k.val; omega

theorem emb5 (t : Fin cfg3.N) (k : Fin 128) (q : Fin 8) : ((cfg3.win 5).blk t).view.emb (ix2 k q) = ix2 k q := by
  obtain ⟨-, -, -, -, -, -, -, -, -, -, e0, e1, -⟩ := idx_facts t
  funext a; apply Fin.ext
  match a with
  | ⟨0, _⟩ => show win3_5.index t (0 : Fin 2) * 128 + 1 * k.val = k.val; omega
  | ⟨1, _⟩ => show win3_5.index t (1 : Fin 2) * 8 + 1 * q.val = q.val; omega

theorem emb6 (t : Fin cfg3.N) (k : Fin 128) (q : Fin 8) : ((cfg3.win 6).blk t).view.emb (ix2 k q) = ix2 k q := by
  obtain ⟨-, -, -, -, -, -, -, -, -, -, -, -, e0, e1, -⟩ := idx_facts t
  funext a; apply Fin.ext
  match a with
  | ⟨0, _⟩ => show win3_6.index t (0 : Fin 2) * 128 + 1 * k.val = k.val; omega
  | ⟨1, _⟩ => show win3_6.index t (1 : Fin 2) * 8 + 1 * q.val = q.val; omega

theorem emb7 (t : Fin cfg3.N) (u : Fin 1) (q : Fin 8) : ((cfg3.win 7).blk t).view.emb (ix2 u q) = ix2 u q := by
  obtain ⟨-, -, -, -, -, -, -, -, -, -, -, -, -, -, e0, e1, -⟩ := idx_facts t
  funext a; apply Fin.ext
  match a with
  | ⟨0, _⟩ => show win3_7.index t (0 : Fin 2) * 1 + 1 * u.val = u.val; omega
  | ⟨1, _⟩ => show win3_7.index t (1 : Fin 2) * 8 + 1 * q.val = q.val; omega

theorem emb8 (t : Fin cfg3.N) (p : Fin 8000) (q : Fin 8) : ((cfg3.win 8).blk t).view.emb (ix2 p q) = ix2 (row t p) q := by
  obtain ⟨-, -, -, -, -, -, -, -, -, -, -, -, -, -, -, -, e0, e1⟩ := idx_facts t
  funext a; apply Fin.ext
  match a with
  | ⟨0, _⟩ => show win3_8.index t (0 : Fin 2) * 8000 + 1 * p.val = t.val * 8000 + p.val; omega
  | ⟨1, _⟩ => show win3_8.index t (1 : Fin 2) * 8 + 1 * q.val = q.val; omega

/-- Point t's block of the predictor: the payload on the blocks of eight arrays is the predictor of the arrays at the block's rows. -/
theorem blk_eq (s d : FVec Ideal S800000x128 .f32) (e : FVec Ideal S800000x32 .f32) (W₁ : FVec Ideal S128x32 .f32) (b₁ : FVec Ideal S1x128 .f32)
    (wc we : FVec Ideal S128x8 .f32) (b : FVec Ideal S1x8 .f32) (t : Fin cfg3.N) (p : Fin 8000) (q : Fin 8) :
    k3_pay1 (F := Ideal) (fun y => s (((cfg3.win 0).blk t).view.emb y)) (fun y => d (((cfg3.win 1).blk t).view.emb y)) (fun y => e (((cfg3.win 2).blk t).view.emb y))
        (fun y => W₁ (((cfg3.win 3).blk t).view.emb y)) (fun y => b₁ (((cfg3.win 4).blk t).view.emb y)) (fun y => wc (((cfg3.win 5).blk t).view.emb y))
        (fun y => we (((cfg3.win 6).blk t).view.emb y)) (fun y => b (((cfg3.win 7).blk t).view.emb y)) (ix2 p q)
      = linD s d e W₁ b₁ wc we b (ix2 (row t p) q) := by
  rw [pay_apply, linD_apply]
  refine congrArg₂ (· + ·) (congrArg₂ (· + ·) (Finset.sum_congr rfl fun k _ => ?_) (Finset.sum_congr rfl fun k _ => ?_)) ?_
  · show (s (((cfg3.win 0).blk t).view.emb (ix2 p k)) * ten + d (((cfg3.win 1).blk t).view.emb (ix2 p k)) * ten) * wc (((cfg3.win 5).blk t).view.emb (ix2 k q)) = _
    rw [emb0, emb1, emb5]
  · show ((∑ l : Fin 32, e (((cfg3.win 2).blk t).view.emb (ix2 p l)) * W₁ (((cfg3.win 3).blk t).view.emb (ix2 k l))) + b₁ (((cfg3.win 4).blk t).view.emb (ix2 (0 : Fin 1) k)))
        * we (((cfg3.win 6).blk t).view.emb (ix2 k q)) = _
    rw [emb4, emb6]
    refine congrArg₂ (· * ·) (congrArg₂ (· + ·) (Finset.sum_congr rfl fun l _ => ?_) rfl) rfl
    rw [emb2, emb3]
  · show b (((cfg3.win 7).blk t).view.emb (ix2 (0 : Fin 1) q)) = _
    rw [emb7]

variable (V : (c : Dev nD) → (b : Ref sig .tc) → Buf (Elt Ideal) ((c : Thread nD τ).loc b))

/-- What point t writes back is block t of the predictor applied to the arrays the region is entered with. -/
theorem flushed_eq (c : Dev nD) (t : Fin cfg3.N) :
    (dat3 V c).flushed 8 t = ((cfg3.win 8).blk t).view.read (Elt Ideal)
      (linD (V c main_v42) (V c main_v49) (V c main_v0) (V c main_arg10) (V c main_v54) (V c main_v51) (V c main_v53) (V c main_v55)) := by
  show (cfg3.win 8).cut (grid3.coords t) ((dat3 V c).after 8 t) = _
  rw [after3_8]
  unfold out3_8
  rw [View.canon_unit_zero hz]
  simp only [View.ld_unit_zero (S := S8000x128) hz, View.ld_unit_zero (S := S8000x32) hz, View.ld_unit_zero (S := S128x32) hz,
    View.ld_unit_zero (S := S1x128) hz, View.ld_unit_zero (S := S128x8) hz, View.ld_unit_zero (S := S1x8) hz]
  funext j
  obtain ⟨p, q, rfl⟩ : ∃ (p : Fin 8000) (q : Fin 8), j = ix2 p q := ⟨j 0, j 1, eq_ix2 j⟩
  show k3_pay1 (F := Ideal) (iblk3 V c 0 t) (iblk3 V c 1 t) (iblk3 V c 2 t) (iblk3 V c 3 t) (iblk3 V c 4 t) (iblk3 V c 5 t) (iblk3 V c 6 t) (iblk3 V c 7 t) (ix2 p q)
    = linD (V c main_v42) (V c main_v49) (V c main_v0) (V c main_arg10) (V c main_v54) (V c main_v51) (V c main_v53) (V c main_v55)
        (((cfg3.win 8).blk t).view.emb (ix2 p q))
  rw [emb8]
  exact blk_eq (V c main_v42) (V c main_v49) (V c main_v0) (V c main_arg10) (V c main_v54) (V c main_v51) (V c main_v53) (V c main_v55) t p q

/-- An index of the output array is in point t's block iff each coordinate is in the block's range. -/
theorem mem_blk (t : Fin cfg3.N) (i : S800000x8.Idx) :
    i ∈ ((cfg3.win 8).blk t).view.set ↔ ∀ a : Fin 2, win3_8.index t a * S8000x8.size a ≤ (i a).val ∧ (i a).val < win3_8.index t a * S8000x8.size a + S8000x8.size a := by
  show i ∈ ((View.whole main_v56).slice (win3_8.rect t)).set ↔ _
  rw [View.set_slice_whole, Rect.mem_set_unit]
  exact Iff.rfl

/-- Every row of the output lies in the block of the point numbered by the row's quotient by 8000. -/
theorem cover (i : S800000x8.Idx) : ∃ t : Fin cfg3.N, (cfg3.win 8).flush t = true ∧ i ∈ ((cfg3.win 8).blk t).view.set := by
  have hi0 : (i 0).val < 800000 := (i 0).isLt
  have hi1 : (i 1).val < 8 := (i 1).isLt
  refine ⟨⟨(i 0).val / 8000, by show (i 0).val / 8000 < 100; omega⟩, flush3_8 _, ?_⟩
  rw [mem_blk]
  obtain ⟨-, -, -, -, -, -, -, -, -, -, -, -, -, -, -, -, e6, e7⟩ := idx_facts ⟨(i 0).val / 8000, by show (i 0).val / 8000 < 100; omega⟩
  intro a
  match a with
  | ⟨0, _⟩ =>
    show win3_8.index _ (0 : Fin 2) * 8000 ≤ (i 0).val ∧ (i 0).val < win3_8.index _ (0 : Fin 2) * 8000 + 8000
    rw [e6]; show (i 0).val / 8000 * 8000 ≤ (i 0).val ∧ (i 0).val < (i 0).val / 8000 * 8000 + 8000; omega
  | ⟨1, _⟩ =>
    show win3_8.index _ (1 : Fin 2) * 8 ≤ (i 1).val ∧ (i 1).val < win3_8.index _ (1 : Fin 2) * 8 + 8
    rw [e7]; omega

/-- The output array after the region: the predictor applied to the arrays the region is entered with. -/
theorem final (c : Dev nD) :
    (dat3 V c).arrAt 8 cfg3.N
      = linD (V c main_v42) (V c main_v49) (V c main_v0) (V c main_arg10) (V c main_v54) (V c main_v51) (V c main_v53) (V c main_v55) :=
  (dat3 V c).arrAt_eq_of_cover 8 _ (fun t _ => flushed_eq V c t) cover

end Cert.KernelIdeal.StageD

end
-- ==== Proof.KValue.lean ====
/-
  The idealized kernel program's result as one function of the argument arrays.

  The buffer contents at the ten boundaries of the program are a fold from the launch memory. Walking the fold
  forward: the host stretch before each tiled region recasts the edge features, counts in-degrees, sums messages over
  incoming edges, divides by max(degree, 1), gathers rows at the edges' endpoints, slices and transposes the weights;
  each region then leaves in its output array its stage's function (`linA` … `linD`) of the arrays it is entered with,
  and every other buffer as it was. Buffers later stretches read again (the edge features, the degree column, the
  arguments) are carried from boundary to boundary. The last region's output is `kscore` of the argument arrays.
-/
import proofs.«101331_j30245159698931_2_alg».proof.Proof.StageA
import proofs.«101331_j30245159698931_2_alg».proof.Proof.StageB
import proofs.«101331_j30245159698931_2_alg».proof.Proof.StageC
import proofs.«101331_j30245159698931_2_alg».proof.Proof.StageD
import Idealize.ShloMosaic.Lib.StableHlo.Run

set_option maxRecDepth 16384

noncomputable section

namespace Cert.KernelIdeal.KValue

open Cert.Forms Cert.KernelIdeal Cert.KernelIdeal.Gen Idealize.ShloMosaic Idealize.ShloMosaic.TcCoe Idealize.SL.Sem Idealize.ShloMosaic.StableHlo
open Idealize.ShloMosaic.Pipeline (Dat Cfg Window)

/-! ## The host stretches as functions -/

/-- The edge features as a matrix. -/
abbrev edges (a3 : FVec Ideal S800000x1x32 .f32) : FVec Ideal S800000x32 .f32 := shapeCast _ a3 shapeCasts_S800000x1x32_S800000x32

/-- An endpoint vector as a column of row numbers. -/
abbrev col (a : IVec S800000 32) : IVec S800000x1 32 := broadcastInDim S800000x1 ![0] bcast_S800000_S800000x1_0 a

/-- A negative endpoint counted from the end. -/
abbrev wrap (a : IVec S800000 32) : IVec S800000 32 :=
  select (cmpi .slt a (broadcastInDim S800000 ![] bcast_S_S800000 (constantI S_ 32 0#32)))
    (addi a (broadcastInDim S800000 ![] bcast_S_S800000 (constantI S_ 32 50000#32))) a

/-- max(in-degree, 1), as a column. -/
abbrev denom (a1 : IVec S800000 32) : FVec Ideal S50000x1 .f32 :=
  broadcastInDim S50000x1 ![0] bcast_S50000_S50000x1_0
    (maximumf (Host.scatterAdd scatter_S50000_S800000x1_S800000_n_0_0_1 (broadcastInDim S50000 ![] bcast_S_S50000 (constant S_ .f32 0x00000000#32)) (col a1)
        (broadcastInDim S800000 ![] bcast_S_S800000 (constant S_ .f32 0x3F800000#32)))
      (broadcastInDim S50000 ![] bcast_S_S50000 (constant S_ .f32 0x3F800000#32)))

/-- The mean of the first layer's messages over incoming edges. -/
abbrev meanOf32 (a1 : IVec S800000 32) (m1 : FVec Ideal S800000x32 .f32) (dn : FVec Ideal S50000x1 .f32) : FVec Ideal S50000x32 .f32 :=
  Host.divf (Host.scatterAdd scatter_S50000x32_S800000x1_S800000x32_1_0_0_1 (broadcastInDim S50000x32 ![] bcast_S_S50000x32 (constant S_ .f32 0x00000000#32)) (col a1) m1)
    (broadcastInDim S50000x32 ![0, 1] bcast_S50000x1_S50000x32_0_1 dn)

/-- The positive part of a node matrix. -/
abbrev relu32 (x : FVec Ideal S50000x32 .f32) : FVec Ideal S50000x32 .f32 :=
  maximumf x (broadcastInDim S50000x32 ![] bcast_S_S50000x32 (constant S_ .f32 0x00000000#32))

/-- The first layer's node features from the messages and the degree column. -/
abbrev hiddenOf (a1 : IVec S800000 32) (m1 : FVec Ideal S800000x32 .f32) (dn : FVec Ideal S50000x1 .f32) : FVec Ideal S50000x32 .f32 :=
  relu32 (meanOf32 a1 m1 dn)

/-- The second layer's mean over incoming edges from the messages and the degree column. -/
abbrev neighOf (a1 : IVec S800000 32) (m2 : FVec Ideal S800000x128 .f32) (dn : FVec Ideal S50000x1 .f32) : FVec Ideal S50000x128 .f32 :=
  Host.divf (Host.scatterAdd scatter_S50000x128_S800000x1_S800000x128_1_0_0_1 (broadcastInDim S50000x128 ![] bcast_S_S50000x128 (constant S_ .f32 0x00000000#32)) (col a1) m2)
    (broadcastInDim S50000x128 ![0, 1] bcast_S50000x1_S50000x128_0_1 dn)

/-- Rows of a node matrix at the edges' endpoints. -/
abbrev rows32 (x : FVec Ideal S50000x32 .f32) (a : IVec S800000 32) : FVec Ideal S800000x32 .f32 :=
  Host.gather gather_S50000x32_S800000x1_S800000x32_1_0_n_n_0_1_132 x (col (wrap a))
abbrev rows128 (x : FVec Ideal S50000x128 .f32) (a : IVec S800000 32) : FVec Ideal S800000x128 .f32 :=
  Host.gather gather_S50000x128_S800000x1_S800000x128_1_0_n_n_0_1_1128 x (col (wrap a))

/-- The two halves of the second layer's weights, each transposed. -/
abbrev wLo (a6 : FVec Ideal S128x64 .f32) : FVec Ideal S32x128 .f32 :=
  transpose S32x128 [1, 0] (extractStridedSlice S128x32 ![0, 0] a6 slices_S128x64_S128x32_0_0) transposes_S128x32_S32x128_1_0
abbrev wHi (a6 : FVec Ideal S128x64 .f32) : FVec Ideal S32x128 .f32 :=
  transpose S32x128 [1, 0] (extractStridedSlice S128x32 ![0, 32] a6 slices_S128x64_S128x32_0_32) transposes_S128x32_S32x128_1_0

/-- The two halves of the predictor's weights, each transposed. -/
abbrev pLo (a12 : FVec Ideal S8x256 .f32) : FVec Ideal S128x8 .f32 :=
  transpose S128x8 [1, 0] (extractStridedSlice S8x128 ![0, 0] a12 slices_S8x256_S8x128_0_0) transposes_S8x128_S128x8_1_0
abbrev pHi (a12 : FVec Ideal S8x256 .f32) : FVec Ideal S128x8 .f32 :=
  transpose S128x8 [1, 0] (extractStridedSlice S8x128 ![0, 128] a12 slices_S8x256_S8x128_0_128) transposes_S8x128_S128x8_1_0

/-- The stages' outputs as functions of the argument arrays. -/
abbrev msg1 (a3 : FVec Ideal S800000x1x32 .f32) (a4 : FVec Ideal S32x32 .f32) (a5 : FVec Ideal S32 .f32) : FVec Ideal S800000x32 .f32 :=
  linA (edges a3) a4 (shapeCast _ a5 shapeCasts_S32_S1x32)
abbrev msg2 (a0 a1 : IVec S800000 32) (a3 : FVec Ideal S800000x1x32 .f32) (a4 : FVec Ideal S32x32 .f32) (a5 : FVec Ideal S32 .f32)
    (a6 : FVec Ideal S128x64 .f32) (a7 : FVec Ideal S128 .f32) : FVec Ideal S800000x128 .f32 :=
  linB (rows32 (hiddenOf a1 (msg1 a3 a4 a5) (denom a1)) a0) (edges a3) (wLo a6) (wHi a6) (shapeCast _ a7 shapeCasts_S128_S1x128)
abbrev node2 (a0 a1 : IVec S800000 32) (a3 : FVec Ideal S800000x1x32 .f32) (a4 : FVec Ideal S32x32 .f32) (a5 : FVec Ideal S32 .f32)
    (a6 : FVec Ideal S128x64 .f32) (a7 : FVec Ideal S128 .f32) (a8 : FVec Ideal S128x128 .f32) (a9 : FVec Ideal S128 .f32) : FVec Ideal S50000x128 .f32 :=
  linC (neighOf a1 (msg2 a0 a1 a3 a4 a5 a6 a7) (denom a1)) a8 (shapeCast _ a9 shapeCasts_S128_S1x128)

/-- The whole network in the tiled stages. -/
def kscore (a0 a1 : IVec S800000 32) (a3 : FVec Ideal S800000x1x32 .f32) (a4 : FVec Ideal S32x32 .f32) (a5 : FVec Ideal S32 .f32)
    (a6 : FVec Ideal S128x64 .f32) (a7 : FVec Ideal S128 .f32) (a8 : FVec Ideal S128x128 .f32) (a9 : FVec Ideal S128 .f32)
    (a10 : FVec Ideal S128x32 .f32) (a11 : FVec Ideal S128 .f32) (a12 : FVec Ideal S8x256 .f32) (a13 : FVec Ideal S8 .f32) : FVec Ideal S800000x8 .f32 :=
  linD (rows128 (node2 a0 a1 a3 a4 a5 a6 a7 a8 a9) a0) (rows128 (node2 a0 a1 a3 a4 a5 a6 a7 a8 a9) a1) (edges a3) a10
    (shapeCast _ a11 shapeCasts_S128_S1x128) (pLo a12) (pHi a12) (shapeCast _ a13 shapeCasts_S8_S1x8)

variable (m : (ℓ : Loc nD τ sig) → Buf (Elt Ideal) ℓ) (ρ : Dev nD → PrngReg) (c : Dev nD)

/-! ## Buffers that are never written keep their launch contents -/

set_option hygiene false in
/-- No operation of the stretch writes the buffer: decided operation by operation. -/
local macro "no_write" : tactic => `(tactic| (
  simp only [hostOps0, hostOps1, hostOps1_1, hostOps1_2, hostOps2, hostOps3, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- A stretch that does not write a buffer leaves it. -/
theorem host_keep (ops : List (HloOp τ sig (Elt Ideal))) (W : Valuation τ sig (Elt Ideal)) (b : Ref sig .tc)
    (h : ops.Forall fun op => Proc.devRef .tc b ∉ op.writes) : StableHlo.after ops W (Proc.devRef .tc b) = W (Proc.devRef .tc b) :=
  StableHlo.after_of_forall_not_mem (b := Proc.devRef .tc b) ops W (List.forall_iff_forall_mem.mp h)

/-- A buffer no host operation writes and no region outputs holds its launch contents at every boundary. -/
theorem kept1 (b : Ref sig .tc) (h0 : ((hostOps0 (F := Ideal)).Forall fun op => Proc.devRef .tc b ∉ op.writes)) : W1 m ρ c (Proc.devRef .tc b) = m ((c.tc : Thread nD τ).loc b) :=
  host_keep hostOps0 (W0 m ρ c) b h0
theorem kept2 (b : Ref sig .tc) (h0 : ((hostOps0 (F := Ideal)).Forall fun op => Proc.devRef .tc b ∉ op.writes)) (hr0 : ∀ w, Pipeline.arrRef spec0 w ≠ b) :
    W2 m ρ c (Proc.devRef .tc b) = m ((c.tc : Thread nD τ).loc b) := (W2_of_ne m ρ c b hr0).trans (kept1 m ρ c b h0)
theorem kept5 (b : Ref sig .tc) (h0 : ((hostOps0 (F := Ideal)).Forall fun op => Proc.devRef .tc b ∉ op.writes)) (hr0 : ∀ w, Pipeline.arrRef spec0 w ≠ b)
    (h1 : ((hostOps1 (F := Ideal)).Forall fun op => Proc.devRef .tc b ∉ op.writes)) (h11 : ((hostOps1_1 (F := Ideal)).Forall fun op => Proc.devRef .tc b ∉ op.writes)) (h12 : ((hostOps1_2 (F := Ideal)).Forall fun op => Proc.devRef .tc b ∉ op.writes)) :
    W5 m ρ c (Proc.devRef .tc b) = m ((c.tc : Thread nD τ).loc b) :=
  (host_keep hostOps1_2 (W4 m ρ c) b h12).trans ((host_keep hostOps1_1 (W3 m ρ c) b h11).trans ((host_keep hostOps1 (W2 m ρ c) b h1).trans (kept2 m ρ c b h0 hr0)))
theorem kept6 (b : Ref sig .tc) (h0 : ((hostOps0 (F := Ideal)).Forall fun op => Proc.devRef .tc b ∉ op.writes)) (hr0 : ∀ w, Pipeline.arrRef spec0 w ≠ b)
    (h1 : ((hostOps1 (F := Ideal)).Forall fun op => Proc.devRef .tc b ∉ op.writes)) (h11 : ((hostOps1_1 (F := Ideal)).Forall fun op => Proc.devRef .tc b ∉ op.writes)) (h12 : ((hostOps1_2 (F := Ideal)).Forall fun op => Proc.devRef .tc b ∉ op.writes)) (hr1 : ∀ w, Pipeline.arrRef spec1 w ≠ b) :
    W6 m ρ c (Proc.devRef .tc b) = m ((c.tc : Thread nD τ).loc b) := (W6_of_ne m ρ c b hr1).trans (kept5 m ρ c b h0 hr0 h1 h11 h12)
theorem kept7 (b : Ref sig .tc) (h0 : ((hostOps0 (F := Ideal)).Forall fun op => Proc.devRef .tc b ∉ op.writes)) (hr0 : ∀ w, Pipeline.arrRef spec0 w ≠ b)
    (h1 : ((hostOps1 (F := Ideal)).Forall fun op => Proc.devRef .tc b ∉ op.writes)) (h11 : ((hostOps1_1 (F := Ideal)).Forall fun op => Proc.devRef .tc b ∉ op.writes)) (h12 : ((hostOps1_2 (F := Ideal)).Forall fun op => Proc.devRef .tc b ∉ op.writes)) (hr1 : ∀ w, Pipeline.arrRef spec1 w ≠ b)
    (h2 : ((hostOps2 (F := Ideal)).Forall fun op => Proc.devRef .tc b ∉ op.writes)) : W7 m ρ c (Proc.devRef .tc b) = m ((c.tc : Thread nD τ).loc b) :=
  (host_keep hostOps2 (W6 m ρ c) b h2).trans (kept6 m ρ c b h0 hr0 h1 h11 h12 hr1)
theorem kept8 (b : Ref sig .tc) (h0 : ((hostOps0 (F := Ideal)).Forall fun op => Proc.devRef .tc b ∉ op.writes)) (hr0 : ∀ w, Pipeline.arrRef spec0 w ≠ b)
    (h1 : ((hostOps1 (F := Ideal)).Forall fun op => Proc.devRef .tc b ∉ op.writes)) (h11 : ((hostOps1_1 (F := Ideal)).Forall fun op => Proc.devRef .tc b ∉ op.writes)) (h12 : ((hostOps1_2 (F := Ideal)).Forall fun op => Proc.devRef .tc b ∉ op.writes)) (hr1 : ∀ w, Pipeline.arrRef spec1 w ≠ b)
    (h2 : ((hostOps2 (F := Ideal)).Forall fun op => Proc.devRef .tc b ∉ op.writes)) (hr2 : ∀ w, Pipeline.arrRef spec2 w ≠ b) : W8 m ρ c (Proc.devRef .tc b) = m ((c.tc : Thread nD τ).loc b) :=
  (W8_of_ne m ρ c b hr2).trans (kept7 m ρ c b h0 hr0 h1 h11 h12 hr1 h2)

/-! ## The edge features and the degree column, carried -/

theorem e1 : W1 m ρ c (Proc.devRef .tc main_v0) = edges (m ((c.tc : Thread nD τ).loc main_arg3)) := by
  show StableHlo.after hostOps0 (W0 m ρ c) (Proc.devRef .tc main_v0) = _
  after_results <;> rfl
theorem e2 : W2 m ρ c (Proc.devRef .tc main_v0) = edges (m ((c.tc : Thread nD τ).loc main_arg3)) :=
  ((W2_arr m ρ c 0).trans (((dat0 (V1 m ρ) c).arrAt_in 0 rfl _).trans (A_eq0 (V1 m ρ) c 0))).trans (e1 m ρ c)
theorem e5 : W5 m ρ c (Proc.devRef .tc main_v0) = edges (m ((c.tc : Thread nD τ).loc main_arg3)) :=
  (host_keep hostOps1_2 (W4 m ρ c) main_v0 (by no_write)).trans ((host_keep hostOps1_1 (W3 m ρ c) main_v0 (by no_write)).trans
    ((host_keep hostOps1 (W2 m ρ c) main_v0 (by no_write)).trans (e2 m ρ c)))
theorem e6 : W6 m ρ c (Proc.devRef .tc main_v0) = edges (m ((c.tc : Thread nD τ).loc main_arg3)) :=
  ((W6_arr m ρ c 1).trans (((dat1 (V5 m ρ) c).arrAt_in 1 rfl _).trans (A_eq1 (V5 m ρ) c 1))).trans (e5 m ρ c)
theorem e7 : W7 m ρ c (Proc.devRef .tc main_v0) = edges (m ((c.tc : Thread nD τ).loc main_arg3)) :=
  (host_keep hostOps2 (W6 m ρ c) main_v0 (by no_write)).trans (e6 m ρ c)
theorem e8 : W8 m ρ c (Proc.devRef .tc main_v0) = edges (m ((c.tc : Thread nD τ).loc main_arg3)) := (W8_of_ne m ρ c main_v0 (by decide)).trans (e7 m ρ c)
theorem e9 : W9 m ρ c (Proc.devRef .tc main_v0) = edges (m ((c.tc : Thread nD τ).loc main_arg3)) :=
  (host_keep hostOps3 (W8 m ρ c) main_v0 (by no_write)).trans (e8 m ρ c)

theorem d1 : W1 m ρ c (Proc.devRef .tc main_v7) = denom (m ((c.tc : Thread nD τ).loc main_arg1)) := by
  show StableHlo.after hostOps0 (W0 m ρ c) (Proc.devRef .tc main_v7) = _
  after_results <;> rfl
theorem d2 : W2 m ρ c (Proc.devRef .tc main_v7) = denom (m ((c.tc : Thread nD τ).loc main_arg1)) := (W2_of_ne m ρ c main_v7 (by decide)).trans (d1 m ρ c)
theorem d5 : W5 m ρ c (Proc.devRef .tc main_v7) = denom (m ((c.tc : Thread nD τ).loc main_arg1)) :=
  (host_keep hostOps1_2 (W4 m ρ c) main_v7 (by no_write)).trans ((host_keep hostOps1_1 (W3 m ρ c) main_v7 (by no_write)).trans
    ((host_keep hostOps1 (W2 m ρ c) main_v7 (by no_write)).trans (d2 m ρ c)))
theorem d6 : W6 m ρ c (Proc.devRef .tc main_v7) = denom (m ((c.tc : Thread nD τ).loc main_arg1)) := (W6_of_ne m ρ c main_v7 (by decide)).trans (d5 m ρ c)

/-! ## Region 0: the first layer's messages -/

theorem r0_b : W1 m ρ c (Proc.devRef .tc main_v8) = shapeCast _ (m ((c.tc : Thread nD τ).loc main_arg5)) shapeCasts_S32_S1x32 := by
  show StableHlo.after hostOps0 (W0 m ρ c) (Proc.devRef .tc main_v8) = _
  after_results <;> rfl

theorem r0 : W2 m ρ c (Proc.devRef .tc main_v9) = msg1 (m ((c.tc : Thread nD τ).loc main_arg3)) (m ((c.tc : Thread nD τ).loc main_arg4)) (m ((c.tc : Thread nD τ).loc main_arg5)) := by
  refine (W2_arr m ρ c 3).trans ((StageA.final (V1 m ρ) c).trans ?_)
  show linA (W1 m ρ c (Proc.devRef .tc main_v0)) (W1 m ρ c (Proc.devRef .tc main_arg4)) (W1 m ρ c (Proc.devRef .tc main_v8)) = _
  rw [e1, r0_b, kept1 m ρ c main_arg4 (by no_write)]

/-! ## Region 1: the second layer's messages -/

/-- The three stretches between regions 0 and 1, each read at the one buffer the next needs, from any contents `W`. -/
theorem s1_sum (W : Valuation τ sig (Elt Ideal)) : StableHlo.after hostOps1 W (Proc.devRef .tc main_v14)
    = meanOf32 (W (Proc.devRef .tc main_arg1)) (W (Proc.devRef .tc main_v9)) (W (Proc.devRef .tc main_v7)) := by
  after_results <;> rfl
theorem s1_relu (W : Valuation τ sig (Elt Ideal)) : StableHlo.after hostOps1_1 W (Proc.devRef .tc main_v15) = relu32 (W (Proc.devRef .tc main_v14)) := by
  after_results <;> rfl
theorem s1_rows (W : Valuation τ sig (Elt Ideal)) : StableHlo.after hostOps1_2 W (Proc.devRef .tc main_v22)
    = rows32 (W (Proc.devRef .tc main_v15)) (W (Proc.devRef .tc main_arg0)) := by
  after_results <;> rfl

theorem r1_h : W5 m ρ c (Proc.devRef .tc main_v22)
    = rows32 (hiddenOf (W2 m ρ c (Proc.devRef .tc main_arg1)) (W2 m ρ c (Proc.devRef .tc main_v9)) (W2 m ρ c (Proc.devRef .tc main_v7)))
        (W2 m ρ c (Proc.devRef .tc main_arg0)) := by
  have h5 : W5 m ρ c (Proc.devRef .tc main_v22)
      = rows32 (W4 m ρ c (Proc.devRef .tc main_v15)) (W4 m ρ c (Proc.devRef .tc main_arg0)) := s1_rows (W4 m ρ c)
  have h4 : W4 m ρ c (Proc.devRef .tc main_v15) = relu32 (W3 m ρ c (Proc.devRef .tc main_v14)) := s1_relu (W3 m ρ c)
  have h3 : W3 m ρ c (Proc.devRef .tc main_v14)
      = meanOf32 (W2 m ρ c (Proc.devRef .tc main_arg1)) (W2 m ρ c (Proc.devRef .tc main_v9)) (W2 m ρ c (Proc.devRef .tc main_v7)) := s1_sum (W2 m ρ c)
  have ha : W4 m ρ c (Proc.devRef .tc main_arg0) = W2 m ρ c (Proc.devRef .tc main_arg0) :=
    (host_keep hostOps1_1 (W3 m ρ c) main_arg0 (by no_write)).trans (host_keep hostOps1 (W2 m ρ c) main_arg0 (by no_write))
  rw [h5, h4, h3, ha]

theorem r1_wLo : W5 m ρ c (Proc.devRef .tc main_v24) = wLo (W2 m ρ c (Proc.devRef .tc main_arg6)) := by
  show StableHlo.after hostOps1_2 (StableHlo.after hostOps1_1 (StableHlo.after hostOps1 (W2 m ρ c))) (Proc.devRef .tc main_v24) = _
  after_results <;> rfl
theorem r1_wHi : W5 m ρ c (Proc.devRef .tc main_v26) = wHi (W2 m ρ c (Proc.devRef .tc main_arg6)) := by
  show StableHlo.after hostOps1_2 (StableHlo.after hostOps1_1 (StableHlo.after hostOps1 (W2 m ρ c))) (Proc.devRef .tc main_v26) = _
  after_results <;> rfl
theorem r1_b : W5 m ρ c (Proc.devRef .tc main_v27) = shapeCast _ (W2 m ρ c (Proc.devRef .tc main_arg7)) shapeCasts_S128_S1x128 := by
  show StableHlo.after hostOps1_2 (StableHlo.after hostOps1_1 (StableHlo.after hostOps1 (W2 m ρ c))) (Proc.devRef .tc main_v27) = _
  after_results <;> rfl

theorem r1 : W6 m ρ c (Proc.devRef .tc main_v28) = msg2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W6_arr m ρ c 5).trans ((StageB.final (V5 m ρ) c).trans ?_)
  show linB (W5 m ρ c (Proc.devRef .tc main_v22)) (W5 m ρ c (Proc.devRef .tc main_v0)) (W5 m ρ c (Proc.devRef .tc main_v24))
      (W5 m ρ c (Proc.devRef .tc main_v26)) (W5 m ρ c (Proc.devRef .tc main_v27)) = _
  rw [r1_h, e5, r1_wLo, r1_wHi, r1_b, r0, d2, kept2 m ρ c main_arg0 (by no_write) (by decide), kept2 m ρ c main_arg1 (by no_write) (by decide),
    kept2 m ρ c main_arg6 (by no_write) (by decide), kept2 m ρ c main_arg7 (by no_write) (by decide)]

/-! ## Region 2: the node update -/

theorem r2_x : W7 m ρ c (Proc.devRef .tc main_v33)
    = neighOf (W6 m ρ c (Proc.devRef .tc main_arg1)) (W6 m ρ c (Proc.devRef .tc main_v28)) (W6 m ρ c (Proc.devRef .tc main_v7)) := by
  show StableHlo.after hostOps2 (W6 m ρ c) (Proc.devRef .tc main_v33) = _
  after_results <;> rfl
theorem r2_b : W7 m ρ c (Proc.devRef .tc main_v34) = shapeCast _ (W6 m ρ c (Proc.devRef .tc main_arg9)) shapeCasts_S128_S1x128 := by
  show StableHlo.after hostOps2 (W6 m ρ c) (Proc.devRef .tc main_v34) = _
  after_results <;> rfl

theorem r2 : W8 m ρ c (Proc.devRef .tc main_v35) = node2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W8_arr m ρ c 3).trans ((StageC.final (V7 m ρ) c).trans ?_)
  show linC (W7 m ρ c (Proc.devRef .tc main_v33)) (W7 m ρ c (Proc.devRef .tc main_arg8)) (W7 m ρ c (Proc.devRef .tc main_v34)) = _
  rw [r2_x, r2_b, r1, d6, kept6 m ρ c main_arg1 (by no_write) (by decide) (by no_write) (by no_write) (by no_write) (by decide),
    kept6 m ρ c main_arg9 (by no_write) (by decide) (by no_write) (by no_write) (by no_write) (by decide),
    kept7 m ρ c main_arg8 (by no_write) (by decide) (by no_write) (by no_write) (by no_write) (by decide) (by no_write)]

/-! ## Region 3: the edge predictor -/

theorem r3_s : W9 m ρ c (Proc.devRef .tc main_v42) = rows128 (W8 m ρ c (Proc.devRef .tc main_v35)) (W8 m ρ c (Proc.devRef .tc main_arg0)) := by
  show StableHlo.after hostOps3 (W8 m ρ c) (Proc.devRef .tc main_v42) = _
  after_results <;> rfl
theorem r3_d : W9 m ρ c (Proc.devRef .tc main_v49) = rows128 (W8 m ρ c (Proc.devRef .tc main_v35)) (W8 m ρ c (Proc.devRef .tc main_arg1)) := by
  show StableHlo.after hostOps3 (W8 m ρ c) (Proc.devRef .tc main_v49) = _
  after_results <;> rfl
theorem r3_b1 : W9 m ρ c (Proc.devRef .tc main_v54) = shapeCast _ (W8 m ρ c (Proc.devRef .tc main_arg11)) shapeCasts_S128_S1x128 := by
  show StableHlo.after hostOps3 (W8 m ρ c) (Proc.devRef .tc main_v54) = _
  after_results <;> rfl
theorem r3_pLo : W9 m ρ c (Proc.devRef .tc main_v51) = pLo (W8 m ρ c (Proc.devRef .tc main_arg12)) := by
  show StableHlo.after hostOps3 (W8 m ρ c) (Proc.devRef .tc main_v51) = _
  after_results <;> rfl
theorem r3_pHi : W9 m ρ c (Proc.devRef .tc main_v53) = pHi (W8 m ρ c (Proc.devRef .tc main_arg12)) := by
  show StableHlo.after hostOps3 (W8 m ρ c) (Proc.devRef .tc main_v53) = _
  after_results <;> rfl
theorem r3_b : W9 m ρ c (Proc.devRef .tc main_v55) = shapeCast _ (W8 m ρ c (Proc.devRef .tc main_arg13)) shapeCasts_S8_S1x8 := by
  show StableHlo.after hostOps3 (W8 m ρ c) (Proc.devRef .tc main_v55) = _
  after_results <;> rfl
theorem r3_w : W9 m ρ c (Proc.devRef .tc main_arg10) = (m ((c.tc : Thread nD τ).loc main_arg10)) :=
  (host_keep hostOps3 (W8 m ρ c) main_arg10 (by no_write)).trans
    (kept8 m ρ c main_arg10 (by no_write) (by decide) (by no_write) (by no_write) (by no_write) (by decide) (by no_write) (by decide))

/-- The result buffer at the last boundary is the network, in its tiled stages, of the argument arrays. -/
theorem value : W10 m ρ c (Proc.devRef .tc main_v56)
    = kscore (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  refine (W10_arr m ρ c 8).trans ((StageD.final (V9 m ρ) c).trans ?_)
  show linD (W9 m ρ c (Proc.devRef .tc main_v42)) (W9 m ρ c (Proc.devRef .tc main_v49)) (W9 m ρ c (Proc.devRef .tc main_v0))
      (W9 m ρ c (Proc.devRef .tc main_arg10)) (W9 m ρ c (Proc.devRef .tc main_v54)) (W9 m ρ c (Proc.devRef .tc main_v51))
      (W9 m ρ c (Proc.devRef .tc main_v53)) (W9 m ρ c (Proc.devRef .tc main_v55)) = _
  rw [r3_s, r3_d, e9, r3_w, r3_b1, r3_pLo, r3_pHi, r3_b, r2,
    kept8 m ρ c main_arg0 (by no_write) (by decide) (by no_write) (by no_write) (by no_write) (by decide) (by no_write) (by decide),
    kept8 m ρ c main_arg1 (by no_write) (by decide) (by no_write) (by no_write) (by no_write) (by decide) (by no_write) (by decide),
    kept8 m ρ c main_arg11 (by no_write) (by decide) (by no_write) (by no_write) (by no_write) (by decide) (by no_write) (by decide),
    kept8 m ρ c main_arg12 (by no_write) (by decide) (by no_write) (by no_write) (by no_write) (by decide) (by no_write) (by decide),
    kept8 m ρ c main_arg13 (by no_write) (by decide) (by no_write) (by no_write) (by no_write) (by decide) (by no_write) (by decide)]
  rfl

end Cert.KernelIdeal.KValue

end
-- ==== Proof.Spec.lean ====
/-
  The reference program as a composition of named stages, at the extended reals.

  With E the edge features [800000, 32], dst and src the edge endpoints, and deg(n) the number of edges into node n:
    denom = max(deg, 1) as a column;   m₁ = (E + E)·W₁ᵀ + b₁;   h = max(segsum_dst(m₁) / denom, 0);
    m₂ = [h[src], E]·W₂ᵀ + b₂;   hₙ = segsum_dst(m₂) / denom;   h₂ = max((hₙ + hₙ)·W₃ᵀ + b₃, 0);
    score = [h₂[src]·10 + h₂[dst]·10, E·W₄ᵀ + b₄]·W₅ᵀ + b₅.
  The four matrix-product stages are `refA` … `refD`; the sums over incoming edges, the quotients and the row
  gathers are the host's own operations. `res_eq`: the run's composed term is `score` of the argument arrays.
-/
import proofs.«101331_j30245159698931_2_alg».proof.Proof.Gen.ReferenceIdeal.Run
import Idealize.ShloMosaic.PureOps.Ideal

set_option maxRecDepth 16384

noncomputable section

namespace Cert.Spec

open Cert.ReferenceIdeal Cert.ReferenceIdeal.Gen Idealize.ShloMosaic Idealize.ShloMosaic.TcCoe Idealize.SL.Sem

/-- (E + E)·Wᵀ + b, the bias spread down the rows. -/
abbrev refA (e : FVec Ideal S800000x32 .f32) (a4 : FVec Ideal S32x32 .f32) (a5 : FVec Ideal S32 .f32) : FVec Ideal S800000x32 .f32 :=
  addf (Host.dotGeneral dot_S800000x32_S32x32_S800000x32_1_0_0_1_n_n none (addf e e) (transpose S32x32 [1, 0] a4 transposes_S32x32_S32x32_1_0))
    (broadcastInDim S800000x32 ![0, 1] bcast_S1x32_S800000x32_0_1 (broadcastInDim S1x32 ![1] bcast_S32_S1x32_1 a5))

/-- [h, E]·Wᵀ + b: the two feature blocks joined along the feature axis. -/
abbrev refB (hs e : FVec Ideal S800000x32 .f32) (a6 : FVec Ideal S128x64 .f32) (a7 : FVec Ideal S128 .f32) : FVec Ideal S800000x128 .f32 :=
  addf (Host.dotGeneral dot_S800000x64_S64x128_S800000x128_1_0_0_1_n_n none
      (concatenate S800000x64 1 [⟨S800000x32, hs⟩, ⟨S800000x32, e⟩] concatenates_S800000x32_S800000x32_S800000x64_d1)
      (transpose S64x128 [1, 0] a6 transposes_S128x64_S64x128_1_0))
    (broadcastInDim S800000x128 ![0, 1] bcast_S1x128_S800000x128_0_1 (broadcastInDim S1x128 ![1] bcast_S128_S1x128_1 a7))

/-- max((x + x)·Wᵀ + b, 0). -/
abbrev refC (x : FVec Ideal S50000x128 .f32) (a8 : FVec Ideal S128x128 .f32) (a9 : FVec Ideal S128 .f32) : FVec Ideal S50000x128 .f32 :=
  maximumf (addf (Host.dotGeneral dot_S50000x128_S128x128_S50000x128_1_0_0_1_n_n none (addf x x) (transpose S128x128 [1, 0] a8 transposes_S128x128_S128x128_1_0))
      (broadcastInDim S50000x128 ![0, 1] bcast_S1x128_S50000x128_0_1 (broadcastInDim S1x128 ![1] bcast_S128_S1x128_1 a9)))
    (broadcastInDim S50000x128 ![] bcast_S_S50000x128 (constant S_ .f32 0x00000000#32))

/-- [s·10 + d·10, E·W₄ᵀ + b₄]·W₅ᵀ + b₅. -/
abbrev refD (s d : FVec Ideal S800000x128 .f32) (e : FVec Ideal S800000x32 .f32) (a10 : FVec Ideal S128x32 .f32) (a11 : FVec Ideal S128 .f32)
    (a12 : FVec Ideal S8x256 .f32) (a13 : FVec Ideal S8 .f32) : FVec Ideal S800000x8 .f32 :=
  addf (Host.dotGeneral dot_S800000x256_S256x8_S800000x8_1_0_0_1_n_n none
      (concatenate S800000x256 1
        [⟨S800000x128, addf (mulf s (broadcastInDim S800000x128 ![] bcast_S_S800000x128 (constant S_ .f32 0x41200000#32)))
                           (mulf d (broadcastInDim S800000x128 ![] bcast_S_S800000x128 (constant S_ .f32 0x41200000#32)))⟩,
         ⟨S800000x128, addf (Host.dotGeneral dot_S800000x32_S32x128_S800000x128_1_0_0_1_n_n none e (transpose S32x128 [1, 0] a10 transposes_S128x32_S32x128_1_0))
                           (broadcastInDim S800000x128 ![0, 1] bcast_S1x128_S800000x128_0_1 (broadcastInDim S1x128 ![1] bcast_S128_S1x128_1 a11))⟩]
        concatenates_S800000x128_S800000x128_S800000x256_d1)
      (transpose S256x8 [1, 0] a12 transposes_S8x256_S256x8_1_0))
    (broadcastInDim S800000x8 ![0, 1] bcast_S1x8_S800000x8_0_1 (broadcastInDim S1x8 ![1] bcast_S8_S1x8_1 a13))

/-- The edge features as a matrix. -/
abbrev edges (a3 : FVec Ideal S800000x1x32 .f32) : FVec Ideal S800000x32 .f32 := shapeCast _ a3 shapeCasts_S800000x1x32_S800000x32

/-- An endpoint vector as a column of row numbers. -/
abbrev col (a : IVec S800000 32) : IVec S800000x1 32 := broadcastInDim S800000x1 ![0] bcast_S800000_S800000x1_0 a

/-- A negative endpoint counted from the end. -/
abbrev wrap (a : IVec S800000 32) : IVec S800000 32 :=
  select (cmpi .slt a (broadcastInDim S800000 ![] bcast_S_S800000 (constantI S_ 32 0#32)))
    (addi a (broadcastInDim S800000 ![] bcast_S_S800000 (constantI S_ 32 50000#32))) a

/-- max(in-degree, 1), as a column. -/
abbrev denom (a1 : IVec S800000 32) : FVec Ideal S50000x1 .f32 :=
  broadcastInDim S50000x1 ![0] bcast_S50000_S50000x1_0
    (maximumf (Host.scatterAdd scatter_S50000_S800000x1_S800000_n_0_0_1 (broadcastInDim S50000 ![] bcast_S_S50000 (constant S_ .f32 0x00000000#32)) (col a1)
        (broadcastInDim S800000 ![] bcast_S_S800000 (constant S_ .f32 0x3F800000#32)))
      (broadcastInDim S50000 ![] bcast_S_S50000 (constant S_ .f32 0x3F800000#32)))

/-- The first layer's node features. -/
abbrev hidden (a1 : IVec S800000 32) (m1 : FVec Ideal S800000x32 .f32) : FVec Ideal S50000x32 .f32 :=
  maximumf (Host.divf (Host.scatterAdd scatter_S50000x32_S800000x1_S800000x32_1_0_0_1 (broadcastInDim S50000x32 ![] bcast_S_S50000x32 (constant S_ .f32 0x00000000#32)) (col a1) m1)
      (broadcastInDim S50000x32 ![0, 1] bcast_S50000x1_S50000x32_0_1 (denom a1)))
    (broadcastInDim S50000x32 ![] bcast_S_S50000x32 (constant S_ .f32 0x00000000#32))

/-- The second layer's mean over incoming edges. -/
abbrev neigh (a1 : IVec S800000 32) (m2 : FVec Ideal S800000x128 .f32) : FVec Ideal S50000x128 .f32 :=
  Host.divf (Host.scatterAdd scatter_S50000x128_S800000x1_S800000x128_1_0_0_1 (broadcastInDim S50000x128 ![] bcast_S_S50000x128 (constant S_ .f32 0x00000000#32)) (col a1) m2)
    (broadcastInDim S50000x128 ![0, 1] bcast_S50000x1_S50000x128_0_1 (denom a1))

/-- Rows of a node matrix at the edges' endpoints. -/
abbrev rows32 (x : FVec Ideal S50000x32 .f32) (a : IVec S800000 32) : FVec Ideal S800000x32 .f32 :=
  Host.gather gather_S50000x32_S800000x1_S800000x32_1_0_n_n_0_1_132 x (col (wrap a))
abbrev rows128 (x : FVec Ideal S50000x128 .f32) (a : IVec S800000 32) : FVec Ideal S800000x128 .f32 :=
  Host.gather gather_S50000x128_S800000x1_S800000x128_1_0_n_n_0_1_1128 x (col (wrap a))

/-- The whole network. -/
def score (a0 a1 : IVec S800000 32) (a3 : FVec Ideal S800000x1x32 .f32) (a4 : FVec Ideal S32x32 .f32) (a5 : FVec Ideal S32 .f32)
    (a6 : FVec Ideal S128x64 .f32) (a7 : FVec Ideal S128 .f32) (a8 : FVec Ideal S128x128 .f32) (a9 : FVec Ideal S128 .f32)
    (a10 : FVec Ideal S128x32 .f32) (a11 : FVec Ideal S128 .f32) (a12 : FVec Ideal S8x256 .f32) (a13 : FVec Ideal S8 .f32) : FVec Ideal S800000x8 .f32 :=
  refD
    (rows128 (refC (neigh a1 (refB (rows32 (hidden a1 (refA (edges a3) a4 a5)) a0) (edges a3) a6 a7)) a8 a9) a0)
    (rows128 (refC (neigh a1 (refB (rows32 (hidden a1 (refA (edges a3) a4 a5)) a0) (edges a3) a6 a7)) a8 a9) a1)
    (edges a3) a10 a11 a12 a13

/-- The run's composed term is the network of the argument arrays. -/
theorem res_eq (m : (ℓ : Loc nD τ sig) → Buf (Elt Ideal) ℓ) (c : Dev nD) :
    Cert.ReferenceIdeal.Value.res_main_v74 (F := Ideal) m c
      = score (m ((c.tc : Thread nD τ).loc main_arg0)) (m ((c.tc : Thread nD τ).loc main_arg1)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9))
          (m ((c.tc : Thread nD τ).loc main_arg10)) (m ((c.tc : Thread nD τ).loc main_arg11)) (m ((c.tc : Thread nD τ).loc main_arg12))
          (m ((c.tc : Thread nD τ).loc main_arg13)) := by
  unfold Cert.ReferenceIdeal.Value.res_main_v74 score
  rfl

end Cert.Spec

end
-- ==== Proof.LibPlainDotGeneral.lean ====
/-
  The host program's matrix product with plain dimension numbers — the left operand's axis 1 contracted with the right
  operand's axis 0, no batch axis — read at an index, at the extended reals: entry (r, j) is the sum over k of
  x(r, k) · w(k, j). The host's product has no accumulator, so this is the tile product's reading (a product into the
  zero accumulator) without the zero. Nothing here depends on a program: the record's coordinate facts are the
  hypothesis `IsPlain`, which each use site proves from its own record by unfolding.
-/
import proofs.«101331_j30245159698931_2_alg».proof.Proof.LibPlainDot

noncomputable section

namespace PlainDot

open Idealize.ShloMosaic Idealize.ShloMosaic.ValueIdx

variable {M K N : Nat} {φ₁ φ₂ : FTy}

/-- The host's matrix product, at the extended reals, read at (r, j): the sum over the contracted axis of
    x(r, k) · w(k, j). -/
theorem dotGeneral_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    Host.dotGeneral (F := Ideal) D prec x w (ix2 r j) = ∑ k : Fin K, x (ix2 r k) * w (ix2 k j) := by
  simp only [Host.dotGeneral]
  rw [Ideal.dotGeneral_apply, ← Equiv.sum_comp (contrEquiv1 D K h.rank h.size).symm]
  refine Finset.sum_congr rfl fun k _ => ?_
  rw [h.lhsIdx_eq r j k, h.rhsIdx_eq r j k]

end PlainDot

end
-- ==== Proof.LibKeepdims.lean ====
/-
  Layout facts for a sum taken along the last axis with the axis kept: a vector of `a` entries recast as a column
  `[a, 1]`, a column spread across `b` lanes, and a one-entry vector spread down a column. Each says which entry of the
  operand an entry of the result reads. General over the extents.
-/
import Idealize.ShloMosaic.Lib.Pipeline.Value
import Idealize.ShloMosaic.Lib.ValueIdx
import Idealize.ShloMosaic.Lib.ValueLayout

namespace Idealize.ShloMosaic.Keepdims

open Idealize.ShloMosaic Idealize.ShloMosaic.ValueIdx

variable {α : Type}

/-- A vector `[a]` recast as a column `[a, 1]` reads, at `(i, 0)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread across `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` recast as a row and spread down `a` rows reads, at `(p, c)`, entry `c`. -/
theorem broadcastTo_row_of_vec_apply {a b : ℕ} (x : (⟨1, ![b]⟩ : Shape).Idx → α) (hc : (⟨1, ![b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ x hc) h (ix2 p c) = x (ix1 c) :=
  (broadcastTo_1b_ab_apply _ h p c).trans (shapeCast_a_1a_apply x hc 0 c)

end Idealize.ShloMosaic.Keepdims
-- ==== Proof.BridgeA.lean ====
/-
  The first layer's matrix product, read entry by entry in two ways. Entry (r, j) of the tiled form is
  Σ_k (e(r,k) + e(r,k)) · W(j,k) + b(0,j), with b the bias vector recast as a one-row matrix, so b(0,j) is the vector's
  entry j. Entry (r, j) of the reference's form is Σ_k (e + e)(r,k) · Wᵀ(k,j) plus the bias vector spread into a row and
  then down the rows, which at (r, j) is again the vector's entry j. Since Wᵀ(k,j) = W(j,k), the two sums agree term by
  term and the two bias readings are the same entry.
-/
import proofs.«101331_j30245159698931_2_alg».proof.Proof.Forms
import proofs.«101331_j30245159698931_2_alg».proof.Proof.Spec
import proofs.«101331_j30245159698931_2_alg».proof.Proof.LibPlainDot
import proofs.«101331_j30245159698931_2_alg».proof.Proof.LibPlainDotGeneral
import proofs.«101331_j30245159698931_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Cert.Forms Cert.Spec Cert.ReferenceIdeal Idealize.ShloMosaic Idealize.ShloMosaic.ValueIdx

/-- A vector `[b]` spread into a row `[1, b]` and then down `a` rows reads, at `(p, c)`, the vector's entry `c`. -/
private theorem rows_of_vec_apply {α : Type} {a b : ℕ} (x : (⟨1, ![b]⟩ : Shape).Idx → α)
    (h2 : (⟨1, ![b]⟩ : Shape).BroadcastsInDim ⟨2, ![1, b]⟩ ![1])
    (h1 : (⟨2, ![1, b]⟩ : Shape).BroadcastsInDim ⟨2, ![a, b]⟩ ![0, 1]) (p : Fin a) (c : Fin b) :
    broadcastInDim ⟨2, ![a, b]⟩ ![0, 1] h1 (broadcastInDim ⟨2, ![1, b]⟩ ![1] h2 x) (ix2 p c) = x (ix1 c) := by
  have e1 := broadcastInDim_apply ![0, 1] h1 (broadcastInDim ⟨2, ![1, b]⟩ ![1] h2 x) (ix2 p c) (ix2 (0 : Fin 1) c) (by
    intro ax
    match ax with
    | ⟨0, _⟩ => rfl
    | ⟨1, _⟩ =>
      show c.val = if b = 1 then 0 else c.val
      split
      · have := c.isLt; omega
      · rfl)
  have e2 := broadcastInDim_apply ![1] h2 x (ix2 (0 : Fin 1) c) (ix1 c) (by
    intro ax
    match ax with
    | ⟨0, _⟩ =>
      show c.val = if b = 1 then 0 else c.val
      split
      · have := c.isLt; omega
      · rfl)
  exact e1.trans e2

/-- The first layer's product is a plain [800000, 32] × [32, 32] product: axis 1 of the left operand against axis 0 of the right. -/
theorem plainA : PlainDot.IsPlain dot_S800000x32_S32x32_S800000x32_1_0_0_1_n_n where
  rank := rfl
  size := rfl
  lhs0 := fun i q => by
    unfold DotDims.lhsIdx
    rw [dif_neg (show ¬(0 : Fin S800000x32.rank) ∈ dot_S800000x32_S32x32_S800000x32_1_0_0_1_n_n.lhsBatch by decide), dif_pos (show (0 : Fin S800000x32.rank) ∈ dot_S800000x32_S32x32_S800000x32_1_0_0_1_n_n.lhsNonContracting by decide)]
    rfl
  lhs1 := fun i q => dot_S800000x32_S32x32_S800000x32_1_0_0_1_n_n.lhsIdx_val_of_single rfl i q
  rhs0 := fun i q => dot_S800000x32_S32x32_S800000x32_1_0_0_1_n_n.rhsIdx_val_of_single rfl i q
  rhs1 := fun i q => by
    unfold DotDims.rhsIdx
    rw [dif_neg (show ¬(1 : Fin S32x32.rank) ∈ dot_S800000x32_S32x32_S800000x32_1_0_0_1_n_n.rhsBatch by decide), dif_pos (show (1 : Fin S32x32.rank) ∈ dot_S800000x32_S32x32_S800000x32_1_0_0_1_n_n.rhsNonContracting by decide)]
    rfl

/-- The first layer: the tiled form on the bias recast as a row is the reference's form. -/
theorem bridgeA (e : FVec Ideal S800000x32 .f32) (a4 : FVec Ideal S32x32 .f32) (a5 : FVec Ideal S32 .f32) (hb : S32.ShapeCasts S1x32) :
    linA e a4 (shapeCast S1x32 a5 hb) = refA e a4 a5 := by
  funext i
  obtain ⟨r, j, rfl⟩ : ∃ (r : Fin 800000) (j : Fin 32), i = ix2 r j := ⟨i 0, i 1, eq_ix2 i⟩
  rw [linA_apply, shapeCast_a_1a_apply a5 hb 0 j]
  unfold refA
  rw [addf_apply, PlainDot.dotGeneral_apply _ plainA, rows_of_vec_apply]
  refine congrArg (· + a5 (ix1 j)) (Finset.sum_congr rfl fun k _ => ?_)
  rw [addf_apply, transpose_ix2_apply]

end Cert.Bridge

end
-- ==== Proof.LibSplitSum.lean ====
/-
  A finite sum over a range of K₁ + K₂ positions, split into its first K₁ and its last K₂ positions: if the summand is
  f on the first block (position k) and g on the second (position K₁ + k), the sum is Σ f + Σ g. Stated over any
  additive commutative monoid, so it needs no finiteness of the values and no cancellation; the range is written as
  `Fin K` with `K₁ + K₂ = K` a hypothesis, so that it applies to a literal extent such as 64 = 32 + 32.
-/
import Mathlib.Algebra.BigOperators.Fin

namespace SplitSum

open scoped BigOperators

/-- A sum over `K = K₁ + K₂` positions of a function that is `f` on the first `K₁` positions and `g` on the last `K₂`
    is the sum of `f` plus the sum of `g`. -/
theorem sum_eq_add_of_blocks {M : Type*} [AddCommMonoid M] {K K₁ K₂ : ℕ} (hK : K₁ + K₂ = K)
    (F : Fin K → M) (f : Fin K₁ → M) (g : Fin K₂ → M)
    (hf : ∀ k : Fin K₁, F ⟨k.val, by have := k.isLt; omega⟩ = f k)
    (hg : ∀ k : Fin K₂, F ⟨K₁ + k.val, by have := k.isLt; omega⟩ = g k) :
    ∑ k, F k = ∑ k, f k + ∑ k, g k := by
  subst hK
  rw [Fin.sum_univ_add]
  congr 1
  · exact Finset.sum_congr rfl fun k _ => hf k
  · exact Finset.sum_congr rfl fun k _ => hg k

end SplitSum
-- ==== Proof.LibJoinLayout.lean ====
/-
  Layout facts for a matrix product whose contracted axis is two feature blocks joined side by side, each saying which
  entry of the operand an entry of the result reads. General over the extents.
    • two matrices joined along the columns: entry (r, k) is the first matrix at (r, k) for k below its width, and the
      second at (r, k − width) from there on;
    • a block of columns of a weight matrix, from column o, transposed: entry (k, j) is the matrix at (j, o + k);
    • a vector spread as one row and then down the rows: entry (p, c) is the vector at c;
    • a scalar constant spread over a matrix: every entry is the constant's extended real.
-/
import Idealize.ShloMosaic.Lib.Pipeline.Value
import Idealize.ShloMosaic.Lib.ValueIdx
import Idealize.ShloMosaic.Lib.ValueLayout

namespace JoinLayout

open Idealize.ShloMosaic Idealize.ShloMosaic.ValueIdx

variable {α : Type}

/-- Two matrices joined along the columns read, at `(r, k)` with `k` below the first one's width, the first at `(r, k)`. -/
theorem concatenate_cols_left {M K₁ K₂ K : ℕ} (x : (⟨2, ![M, K₁]⟩ : Shape).Idx → α) (y : (⟨2, ![M, K₂]⟩ : Shape).Idx → α)
    (h : Shape.Concatenates [(⟨2, ![M, K₁]⟩ : Shape), ⟨2, ![M, K₂]⟩] ⟨2, ![M, K]⟩ 1)
    (r : Fin M) (k : Fin K) (k₁ : Fin K₁) (hk : k₁.val = k.val) :
    concatenate ⟨2, ![M, K]⟩ 1 [⟨⟨2, ![M, K₁]⟩, x⟩, ⟨⟨2, ![M, K₂]⟩, y⟩] h (ix2 r k) = x (ix2 r k₁) :=
  concatenate_pair_apply_left 1 x y h (ix2 r k) rfl (ix2 r k₁) fun b => by
    match b with
    | ⟨0, _⟩ => rfl
    | ⟨1, _⟩ => exact hk

/-- Two matrices joined along the columns read, at `(r, k)` with `k` at or past the first one's width, the second at
    `(r, k − width)`. -/
theorem concatenate_cols_right {M K₁ K₂ K : ℕ} (x : (⟨2, ![M, K₁]⟩ : Shape).Idx → α) (y : (⟨2, ![M, K₂]⟩ : Shape).Idx → α)
    (h : Shape.Concatenates [(⟨2, ![M, K₁]⟩ : Shape), ⟨2, ![M, K₂]⟩] ⟨2, ![M, K]⟩ 1)
    (r : Fin M) (k : Fin K) (k₂ : Fin K₂) (hk : k₂.val + K₁ = k.val) :
    concatenate ⟨2, ![M, K]⟩ 1 [⟨⟨2, ![M, K₁]⟩, x⟩, ⟨⟨2, ![M, K₂]⟩, y⟩] h (ix2 r k) = y (ix2 r k₂) :=
  concatenate_pair_apply_right 1 x y h (ix2 r k) rfl rfl (ix2 r k₂)
    (fun b hb => by
      match b, hb with
      | ⟨0, _⟩, _ => rfl
      | ⟨1, _⟩, hb => exact absurd (Fin.ext rfl) hb)
    hk

/-- A block of columns of a matrix, from column `o`, transposed, reads at `(k, j)` the matrix at `(j, o + k)`. -/
theorem transpose_slice_cols_apply {N K K' : ℕ} (o : ℕ) (W : (⟨2, ![N, K]⟩ : Shape).Idx → α)
    (hs : (⟨2, ![N, K]⟩ : Shape).Slices ![0, o] ⟨2, ![N, K']⟩) (ht : (⟨2, ![N, K']⟩ : Shape).Transposes [1, 0] ⟨2, ![K', N]⟩)
    (k : Fin K') (j : Fin N) (k' : Fin K) (hk : k'.val = o + k.val) :
    transpose ⟨2, ![K', N]⟩ [1, 0] (extractStridedSlice ⟨2, ![N, K']⟩ ![0, o] W hs) ht (ix2 k j) = W (ix2 j k') :=
  (transpose_ix2_apply _ ht k j).trans (slice2_axis1_apply o W hs j k k' hk)

/-- A vector `[b]` spread as the row `[1, b]` and then down `a` rows reads, at `(p, c)`, entry `c`. -/
theorem broadcastInDim_row_of_vec_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 x) (ix2 p c) = x (ix1 c) := by
  refine (broadcastInDim_apply _ h2 _ (ix2 p c) (ix2 (0 : Fin 1) c) fun ax => ?_).trans
    (broadcastInDim_apply _ h1 x (ix2 (0 : Fin 1) c) (ix1 c) fun ax => ?_)
  · match ax with
    | ⟨0, _⟩ => rfl
    | ⟨1, _⟩ =>
      show c.val = if b = 1 then 0 else c.val
      split
      · have := c.isLt; omega
      · rfl
  · match ax with
    | ⟨0, _⟩ =>
      show c.val = if b = 1 then 0 else c.val
      split
      · have := c.isLt; omega
      · rfl

/-- A scalar constant spread over any shape reads, at every index, the extended real its word encodes. -/
theorem broadcastInDim_constant_apply {t : Shape} {φ : FTy} (w : BitVec φ.bits)
    (h : (⟨0, ![]⟩ : Shape).BroadcastsInDim t (![] : Fin 0 → Fin t.rank)) (i : t.Idx) :
    broadcastInDim t ![] h (constant (F := Ideal) ⟨0, ![]⟩ φ w) i = Ideal.ofBits φ w := rfl

end JoinLayout
-- ==== Proof.BridgeB.lean ====
/-
  The second layer's matrix product, read entry by entry at the extended reals.

  The reference joins the node features h and the edge features E side by side into [h, E] (64 columns) and multiplies
  by the transposed weight matrix W (128 × 64): entry (r, j) is Σ_{k<64} [h, E](r, k) · W(j, k) + b(j). The joined
  row is h(r, k) for k < 32 and E(r, k − 32) from there on, so the sum over 64 positions is the sum of its two blocks
  of 32 (addition of extended reals is commutative and associative; nothing else is used):
      Σ_{k<32} h(r, k) · W(j, k)  +  Σ_{k<32} E(r, k) · W(j, 32 + k)  +  b(j).
  The tiled form reads the same entries: its first weight operand, the columns 0 … 31 of W transposed, is W(j, k) at
  (k, j); its second, the columns 32 … 63 transposed, is W(j, 32 + k) at (k, j); its bias row is b(j) at (0, j).
-/
import proofs.«101331_j30245159698931_2_alg».proof.Proof.Forms
import proofs.«101331_j30245159698931_2_alg».proof.Proof.Spec
import proofs.«101331_j30245159698931_2_alg».proof.Proof.LibPlainDot
import proofs.«101331_j30245159698931_2_alg».proof.Proof.LibPlainDotGeneral
import proofs.«101331_j30245159698931_2_alg».proof.Proof.LibKeepdims
import proofs.«101331_j30245159698931_2_alg».proof.Proof.LibSplitSum
import proofs.«101331_j30245159698931_2_alg».proof.Proof.LibJoinLayout
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Cert.Forms Cert.Spec Cert.ReferenceIdeal Idealize.ShloMosaic Idealize.ShloMosaic.ValueIdx

/-- The product over the joined feature axis is a plain [800000, 64] × [64, 128] product. -/
theorem plainB : PlainDot.IsPlain dot_S800000x64_S64x128_S800000x128_1_0_0_1_n_n where
  rank := rfl
  size := rfl
  lhs0 := fun i q => by
    unfold DotDims.lhsIdx
    rw [dif_neg (show ¬(0 : Fin S800000x64.rank) ∈ dot_S800000x64_S64x128_S800000x128_1_0_0_1_n_n.lhsBatch by decide), dif_pos (show (0 : Fin S800000x64.rank) ∈ dot_S800000x64_S64x128_S800000x128_1_0_0_1_n_n.lhsNonContracting by decide)]
    rfl
  lhs1 := fun i q => dot_S800000x64_S64x128_S800000x128_1_0_0_1_n_n.lhsIdx_val_of_single rfl i q
  rhs0 := fun i q => dot_S800000x64_S64x128_S800000x128_1_0_0_1_n_n.rhsIdx_val_of_single rfl i q
  rhs1 := fun i q => by
    unfold DotDims.rhsIdx
    rw [dif_neg (show ¬(1 : Fin S64x128.rank) ∈ dot_S800000x64_S64x128_S800000x128_1_0_0_1_n_n.rhsBatch by decide), dif_pos (show (1 : Fin S64x128.rank) ∈ dot_S800000x64_S64x128_S800000x128_1_0_0_1_n_n.rhsNonContracting by decide)]
    rfl

/-- The second layer: two products over the halves of the feature axis against one product over the joined axis. -/
theorem bridgeB (hs e : FVec Ideal S800000x32 .f32) (a6 : FVec Ideal S128x64 .f32) (a7 : FVec Ideal S128 .f32)
    (hs0 : S128x64.Slices ![0, 0] S128x32) (hs1 : S128x64.Slices ![0, 32] S128x32) (ht : S128x32.Transposes [1, 0] S32x128) (hb : S128.ShapeCasts S1x128) :
    linB hs e (transpose S32x128 [1, 0] (extractStridedSlice S128x32 ![0, 0] a6 hs0) ht)
        (transpose S32x128 [1, 0] (extractStridedSlice S128x32 ![0, 32] a6 hs1) ht) (shapeCast S1x128 a7 hb)
      = refB hs e a6 a7 := by
  funext i
  obtain ⟨r, j, rfl⟩ : ∃ (r : Fin 800000) (j : Fin 128), i = ix2 r j := ⟨i 0, i 1, eq_ix2 i⟩
  rw [linB_apply]
  show _ = addf _ _ (ix2 r j)
  rw [addf_apply, PlainDot.dotGeneral_apply _ plainB, JoinLayout.broadcastInDim_row_of_vec_apply, shapeCast_a_1a_apply]
  -- both sides now end in the same bias entry b(j); what is left is the sum over 64 positions against its two blocks
  congr 1
  symm
  refine SplitSum.sum_eq_add_of_blocks (K₁ := 32) (K₂ := 32) rfl _ _ _ (fun k => ?_) (fun k => ?_)
  · -- position k < 32 reads h(r, k) and W(j, k)
    exact congrArg₂ (· * ·) (JoinLayout.concatenate_cols_left hs e _ r _ k rfl)
      ((transpose_ix2_apply a6 _ _ j).trans
        (JoinLayout.transpose_slice_cols_apply 0 a6 hs0 ht k j _ (Nat.zero_add _).symm).symm)
  · -- position 32 + k reads E(r, k) and W(j, 32 + k)
    exact congrArg₂ (· * ·) (JoinLayout.concatenate_cols_right hs e _ r _ k (Nat.add_comm _ _))
      ((transpose_ix2_apply a6 _ _ j).trans
        (JoinLayout.transpose_slice_cols_apply 32 a6 hs1 ht k j _ rfl).symm)

end Cert.Bridge

end
-- ==== Proof.BridgeC.lean ====
/-
  The node update with its rectifier, read entry by entry in two ways. Entry (r, j) of the tiled form is
  max(Σ_k (x(r,k) + x(r,k)) · W(j,k) + b(0,j), 0), with b the bias vector recast as a one-row matrix, so b(0,j) is the
  vector's entry j. Entry (r, j) of the reference's form is the larger of Σ_k (x + x)(r,k) · Wᵀ(k,j) plus the bias vector
  spread into a row and then down the rows (at (r, j): the vector's entry j), and the scalar 0 spread over the whole
  array (at every index: 0). Since Wᵀ(k,j) = W(j,k), the two sums agree term by term, the bias readings are the same
  entry, and both floors are the same number.
-/
import proofs.«101331_j30245159698931_2_alg».proof.Proof.Forms
import proofs.«101331_j30245159698931_2_alg».proof.Proof.Spec
import proofs.«101331_j30245159698931_2_alg».proof.Proof.LibPlainDot
import proofs.«101331_j30245159698931_2_alg».proof.Proof.LibPlainDotGeneral
import proofs.«101331_j30245159698931_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Cert.Forms Cert.Spec Cert.ReferenceIdeal Idealize.ShloMosaic Idealize.ShloMosaic.ValueIdx

/-- A vector `[b]` spread into a row `[1, b]` and then down `a` rows reads, at `(p, c)`, the vector's entry `c`. -/
private theorem rows_of_vec_apply {α : Type} {a b : ℕ} (x : (⟨1, ![b]⟩ : Shape).Idx → α)
    (h2 : (⟨1, ![b]⟩ : Shape).BroadcastsInDim ⟨2, ![1, b]⟩ ![1])
    (h1 : (⟨2, ![1, b]⟩ : Shape).BroadcastsInDim ⟨2, ![a, b]⟩ ![0, 1]) (p : Fin a) (c : Fin b) :
    broadcastInDim ⟨2, ![a, b]⟩ ![0, 1] h1 (broadcastInDim ⟨2, ![1, b]⟩ ![1] h2 x) (ix2 p c) = x (ix1 c) := by
  have e1 := broadcastInDim_apply ![0, 1] h1 (broadcastInDim ⟨2, ![1, b]⟩ ![1] h2 x) (ix2 p c) (ix2 (0 : Fin 1) c) (by
    intro ax
    match ax with
    | ⟨0, _⟩ => rfl
    | ⟨1, _⟩ =>
      show c.val = if b = 1 then 0 else c.val
      split
      · have := c.isLt; omega
      · rfl)
  have e2 := broadcastInDim_apply ![1] h2 x (ix2 (0 : Fin 1) c) (ix1 c) (by
    intro ax
    match ax with
    | ⟨0, _⟩ =>
      show c.val = if b = 1 then 0 else c.val
      split
      · have := c.isLt; omega
      · rfl)
  exact e1.trans e2

/-- A scalar spread over any shape reads the scalar everywhere. -/
private theorem scalar_spread_apply {α : Type} {T : Shape} (h : (⟨0, ![]⟩ : Shape).BroadcastsInDim T ![])
    (x : (⟨0, ![]⟩ : Shape).Idx → α) (j : T.Idx) : broadcastInDim T ![] h x j = x ix0 :=
  broadcastInDim_apply ![] h x j ix0 fun a => a.elim0

/-- The node update's product is a plain [50000, 128] × [128, 128] product: axis 1 of the left operand against axis 0 of the right. -/
theorem plainC : PlainDot.IsPlain dot_S50000x128_S128x128_S50000x128_1_0_0_1_n_n where
  rank := rfl
  size := rfl
  lhs0 := fun i q => by
    unfold DotDims.lhsIdx
    rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
    rfl
  lhs1 := fun i q => dot_S50000x128_S128x128_S50000x128_1_0_0_1_n_n.lhsIdx_val_of_single rfl i q
  rhs0 := fun i q => dot_S50000x128_S128x128_S50000x128_1_0_0_1_n_n.rhsIdx_val_of_single rfl i q
  rhs1 := fun i q => by
    unfold DotDims.rhsIdx
    rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
    rfl

/-- The node update with its rectifier. -/
theorem bridgeC (x : FVec Ideal S50000x128 .f32) (a8 : FVec Ideal S128x128 .f32) (a9 : FVec Ideal S128 .f32) (hb : S128.ShapeCasts S1x128) :
    linC x a8 (shapeCast S1x128 a9 hb) = refC x a8 a9 := by
  funext i
  obtain ⟨r, j, rfl⟩ : ∃ (r : Fin 50000) (j : Fin 128), i = ix2 r j := ⟨i 0, i 1, eq_ix2 i⟩
  rw [linC_apply, shapeCast_a_1a_apply a9 hb 0 j]
  unfold refC
  rw [maximumf_apply, addf_apply, PlainDot.dotGeneral_apply _ plainC, rows_of_vec_apply, scalar_spread_apply, constant_apply]
  refine congrArg (fun t => max (t + a9 (ix1 j)) zero) (Finset.sum_congr rfl fun k _ => ?_)
  rw [addf_apply, transpose_ix2_apply]

end Cert.Bridge

end
-- ==== Proof.BridgeD.lean ====
/-
  The edge predictor's matrix product, read entry by entry at the extended reals.

  The reference joins the scaled endpoint features s·10 + d·10 (128 columns) and the edge features' own layer
  E·W₁ᵀ + b₁ (128 columns) side by side (256 columns) and multiplies by the transposed weight matrix W (8 × 256):
  entry (r, j) is Σ_{k<256} J(r, k) · W(j, k) + b(j), where the joined row J(r, ·) is
      s(r, k)·10 + d(r, k)·10                      for k < 128   (the scale is a constant, 10 at every entry),
      Σ_{l<32} E(r, l) · W₁(k − 128, l) + b₁(k − 128)   from there on.
  The sum over 256 positions is the sum of its two blocks of 128 (addition of extended reals is commutative and
  associative; nothing else is used). The tiled form reads the same entries: its first weight operand, the columns
  0 … 127 of W transposed, is W(j, k) at (k, j); its second, the columns 128 … 255 transposed, is W(j, 128 + k) at
  (k, j); its bias rows are b₁(k) at (0, k) and b(j) at (0, j).
-/
import proofs.«101331_j30245159698931_2_alg».proof.KernelIdeal
import proofs.«101331_j30245159698931_2_alg».proof.Proof.Forms
import proofs.«101331_j30245159698931_2_alg».proof.Proof.Spec
import proofs.«101331_j30245159698931_2_alg».proof.Proof.LibPlainDot
import proofs.«101331_j30245159698931_2_alg».proof.Proof.LibPlainDotGeneral
import proofs.«101331_j30245159698931_2_alg».proof.Proof.LibKeepdims
import proofs.«101331_j30245159698931_2_alg».proof.Proof.LibSplitSum
import proofs.«101331_j30245159698931_2_alg».proof.Proof.LibJoinLayout
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Cert.Forms Cert.Spec Cert.ReferenceIdeal Idealize.ShloMosaic Idealize.ShloMosaic.ValueIdx
-- the two shapes of the weight blocks that only the tiled program names
open Cert.KernelIdeal (S8x128 S128x8)

/-- The product over the joined 256 features is a plain [800000, 256] × [256, 8] product. -/
theorem plainD : PlainDot.IsPlain dot_S800000x256_S256x8_S800000x8_1_0_0_1_n_n where
  rank := rfl
  size := rfl
  lhs0 := fun i q => by
    unfold DotDims.lhsIdx
    rw [dif_neg (show ¬(0 : Fin S800000x256.rank) ∈ dot_S800000x256_S256x8_S800000x8_1_0_0_1_n_n.lhsBatch by decide), dif_pos (show (0 : Fin S800000x256.rank) ∈ dot_S800000x256_S256x8_S800000x8_1_0_0_1_n_n.lhsNonContracting by decide)]
    rfl
  lhs1 := fun i q => dot_S800000x256_S256x8_S800000x8_1_0_0_1_n_n.lhsIdx_val_of_single rfl i q
  rhs0 := fun i q => dot_S800000x256_S256x8_S800000x8_1_0_0_1_n_n.rhsIdx_val_of_single rfl i q
  rhs1 := fun i q => by
    unfold DotDims.rhsIdx
    rw [dif_neg (show ¬(1 : Fin S256x8.rank) ∈ dot_S800000x256_S256x8_S800000x8_1_0_0_1_n_n.rhsBatch by decide), dif_pos (show (1 : Fin S256x8.rank) ∈ dot_S800000x256_S256x8_S800000x8_1_0_0_1_n_n.rhsNonContracting by decide)]
    rfl

/-- The edge features' own layer is a plain [800000, 32] × [32, 128] product. -/
theorem plainD₁ : PlainDot.IsPlain dot_S800000x32_S32x128_S800000x128_1_0_0_1_n_n where
  rank := rfl
  size := rfl
  lhs0 := fun i q => by
    unfold DotDims.lhsIdx
    rw [dif_neg (show ¬(0 : Fin S800000x32.rank) ∈ dot_S800000x32_S32x128_S800000x128_1_0_0_1_n_n.lhsBatch by decide), dif_pos (show (0 : Fin S800000x32.rank) ∈ dot_S800000x32_S32x128_S800000x128_1_0_0_1_n_n.lhsNonContracting by decide)]
    rfl
  lhs1 := fun i q => dot_S800000x32_S32x128_S800000x128_1_0_0_1_n_n.lhsIdx_val_of_single rfl i q
  rhs0 := fun i q => dot_S800000x32_S32x128_S800000x128_1_0_0_1_n_n.rhsIdx_val_of_single rfl i q
  rhs1 := fun i q => by
    unfold DotDims.rhsIdx
    rw [dif_neg (show ¬(1 : Fin S32x128.rank) ∈ dot_S800000x32_S32x128_S800000x128_1_0_0_1_n_n.rhsBatch by decide), dif_pos (show (1 : Fin S32x128.rank) ∈ dot_S800000x32_S32x128_S800000x128_1_0_0_1_n_n.rhsNonContracting by decide)]
    rfl

/-- The edge features' own layer at `(r, k)`: Σ_l E(r, l) · W₁(k, l) + b₁(k), the bias written as the row the tiled form
    reads it from. -/
theorem edgeLayer_apply (e : FVec Ideal S800000x32 .f32) (a10 : FVec Ideal S128x32 .f32) (a11 : FVec Ideal S128 .f32)
    (ht : S128x32.Transposes [1, 0] S32x128) (h1 : S128.BroadcastsInDim S1x128 (![1] : Fin 1 → Fin S1x128.rank))
    (h2 : S1x128.BroadcastsInDim S800000x128 (![0, 1] : Fin 2 → Fin S800000x128.rank))
    (hb1 : S128.ShapeCasts S1x128) (r : Fin 800000) (k : Fin 128) :
    addf (Host.dotGeneral (F := Ideal) dot_S800000x32_S32x128_S800000x128_1_0_0_1_n_n none e (transpose S32x128 [1, 0] a10 ht))
        (broadcastInDim S800000x128 ![0, 1] h2 (broadcastInDim S1x128 ![1] h1 a11)) (ix2 r k)
      = (∑ l : Fin 32, e (ix2 r l) * a10 (ix2 k l)) + shapeCast S1x128 a11 hb1 (ix2 (0 : Fin 1) k) := by
  rw [addf_apply, PlainDot.dotGeneral_apply _ plainD₁, JoinLayout.broadcastInDim_row_of_vec_apply, shapeCast_a_1a_apply]
  congr 1
  exact Finset.sum_congr rfl fun l _ => congrArg (e (ix2 r l) * ·) (transpose_ix2_apply a10 ht l k)

/-- The edge predictor: the same split over the joined 256 features. -/
theorem bridgeD (s d : FVec Ideal S800000x128 .f32) (e : FVec Ideal S800000x32 .f32) (a10 : FVec Ideal S128x32 .f32) (a11 : FVec Ideal S128 .f32)
    (a12 : FVec Ideal S8x256 .f32) (a13 : FVec Ideal S8 .f32)
    (hs0 : S8x256.Slices ![0, 0] S8x128) (hs1 : S8x256.Slices ![0, 128] S8x128) (ht : S8x128.Transposes [1, 0] S128x8)
    (hb1 : S128.ShapeCasts S1x128) (hb : S8.ShapeCasts S1x8) :
    linD s d e a10 (shapeCast S1x128 a11 hb1)
        (transpose S128x8 [1, 0] (extractStridedSlice S8x128 ![0, 0] a12 hs0) ht)
        (transpose S128x8 [1, 0] (extractStridedSlice S8x128 ![0, 128] a12 hs1) ht) (shapeCast S1x8 a13 hb)
      = refD s d e a10 a11 a12 a13 := by
  funext i
  obtain ⟨r, j, rfl⟩ : ∃ (r : Fin 800000) (j : Fin 8), i = ix2 r j := ⟨i 0, i 1, eq_ix2 i⟩
  rw [linD_apply]
  show _ = addf _ _ (ix2 r j)
  rw [addf_apply, PlainDot.dotGeneral_apply _ plainD, JoinLayout.broadcastInDim_row_of_vec_apply, shapeCast_a_1a_apply]
  -- both sides now end in the same bias entry b(j); what is left is the sum over 256 positions against its two blocks
  congr 1
  symm
  refine SplitSum.sum_eq_add_of_blocks (K₁ := 128) (K₂ := 128) rfl _ _ _ (fun k => ?_) (fun k => ?_)
  · -- the first block: the scaled endpoint features, whose scale is the constant 10 at every entry
    exact congrArg₂ (· * ·) (JoinLayout.concatenate_cols_left _ _ _ r _ k rfl)
      ((transpose_ix2_apply a12 _ _ j).trans
        (JoinLayout.transpose_slice_cols_apply 0 a12 hs0 ht k j _ (Nat.zero_add _).symm).symm)
  · -- the second block: the edge features' own layer
    exact congrArg₂ (· * ·)
      ((JoinLayout.concatenate_cols_right _ _ _ r _ k (Nat.add_comm _ _)).trans (edgeLayer_apply e a10 a11 _ _ _ hb1 r k))
      ((transpose_ix2_apply a12 _ _ j).trans
        (JoinLayout.transpose_slice_cols_apply 128 a12 hs1 ht k j _ rfl).symm)

end Cert.Bridge

end
-- ==== Proof.lean ====
/-
  The certificate of the message-passing network's tiled program against its plain reference.

  Both programs count in-degrees, form the first layer's messages (E + E)·W₁ᵀ + b₁, average them over incoming edges
  and rectify, gather the result at the edges' sources, form the second layer's messages, average again, apply the node
  update, gather at both endpoints and score every edge. The tiled program runs the four matrix-product stages as
  kernel regions over blocks of 8000 edges or 10000 nodes; everything between the regions is the same host operations
  as the reference's. At the extended reals:
    · a region's output array is its stage's function of the arrays it is entered with (one point per row block, the
      blocks covering the array);
    · each stage's function is the reference's expression for that stage: the first and third are the same sum; the
      second and fourth contract over a joined feature axis in the reference and over its two halves in the kernel,
      and a sum over 2K positions is the sum of its two blocks of K — addition's commutativity and associativity only,
      so no input needs to be finite;
    · so the two results are one function of the arguments (`kscore_eq`), and the arguments agree.
  The frames are the generated ones; the reference's is its generated run with the result dropped. The idealization
  rewrote no operation, so there is nothing to preserve.
-/
import proofs.«101331_j30245159698931_2_alg».proof.Defs
import proofs.«101331_j30245159698931_2_alg».proof.Proof.Gen.Kernel
import proofs.«101331_j30245159698931_2_alg».proof.Proof.Gen.Kernel.Skeleton
import proofs.«101331_j30245159698931_2_alg».proof.Proof.Gen.Kernel.Launch
import proofs.«101331_j30245159698931_2_alg».proof.Proof.Gen.Kernel.Points
import proofs.«101331_j30245159698931_2_alg».proof.Proof.Gen.Kernel.Frame
import proofs.«101331_j30245159698931_2_alg».proof.Proof.Gen.KernelIdeal
import proofs.«101331_j30245159698931_2_alg».proof.Proof.Gen.KernelIdeal.Skeleton
import proofs.«101331_j30245159698931_2_alg».proof.Proof.Gen.KernelIdeal.Launch
import proofs.«101331_j30245159698931_2_alg».proof.Proof.Gen.KernelIdeal.Points
import proofs.«101331_j30245159698931_2_alg».proof.Proof.Gen.KernelIdeal.Frame
import proofs.«101331_j30245159698931_2_alg».proof.Proof.Gen.ReferenceIdeal
import proofs.«101331_j30245159698931_2_alg».proof.Proof.Gen.Pre_finite_inputs
import proofs.«101331_j30245159698931_2_alg».proof.Proof.Gen.ReferenceIdeal.Run
import proofs.«101331_j30245159698931_2_alg».proof.Proof.KRun
import proofs.«101331_j30245159698931_2_alg».proof.Proof.KValue
import proofs.«101331_j30245159698931_2_alg».proof.Proof.Spec
import proofs.«101331_j30245159698931_2_alg».proof.Proof.BridgeA
import proofs.«101331_j30245159698931_2_alg».proof.Proof.BridgeB
import proofs.«101331_j30245159698931_2_alg».proof.Proof.BridgeC
import proofs.«101331_j30245159698931_2_alg».proof.Proof.BridgeD
import Idealize.ShloMosaic.Adequacy
import Idealize.ShloMosaic.Init

set_option maxRecDepth 16384

noncomputable section

namespace Cert.Proof

open Idealize.ShloMosaic Idealize.ShloMosaic.TcCoe Idealize.SL.Sem

/-- The network in the kernel's tiled stages is the network in the reference's stages: stage by stage the tiled form,
    on the weights as the host hands them to the region, is the reference's expression. -/
theorem kscore_eq (a0 a1 : IVec Cert.ReferenceIdeal.S800000 32) (a3 : FVec Ideal Cert.ReferenceIdeal.S800000x1x32 .f32)
    (a4 : FVec Ideal Cert.ReferenceIdeal.S32x32 .f32) (a5 : FVec Ideal Cert.ReferenceIdeal.S32 .f32)
    (a6 : FVec Ideal Cert.ReferenceIdeal.S128x64 .f32) (a7 : FVec Ideal Cert.ReferenceIdeal.S128 .f32)
    (a8 : FVec Ideal Cert.ReferenceIdeal.S128x128 .f32) (a9 : FVec Ideal Cert.ReferenceIdeal.S128 .f32)
    (a10 : FVec Ideal Cert.ReferenceIdeal.S128x32 .f32) (a11 : FVec Ideal Cert.ReferenceIdeal.S128 .f32)
    (a12 : FVec Ideal Cert.ReferenceIdeal.S8x256 .f32) (a13 : FVec Ideal Cert.ReferenceIdeal.S8 .f32) :
    Cert.KernelIdeal.KValue.kscore a0 a1 a3 a4 a5 a6 a7 a8 a9 a10 a11 a12 a13 = Cert.Spec.score a0 a1 a3 a4 a5 a6 a7 a8 a9 a10 a11 a12 a13 := by
  unfold Cert.KernelIdeal.KValue.kscore Cert.Spec.score
  unfold Cert.KernelIdeal.KValue.node2 Cert.KernelIdeal.KValue.msg2 Cert.KernelIdeal.KValue.msg1
  rw [Cert.Bridge.bridgeD, Cert.Bridge.bridgeC, Cert.Bridge.bridgeB, Cert.Bridge.bridgeA]
  rfl

/-- Equal arguments, equal networks. -/
theorem score_congr (a0 a1 : IVec Cert.ReferenceIdeal.S800000 32) (a3 : FVec Ideal Cert.ReferenceIdeal.S800000x1x32 .f32)
    (a4 : FVec Ideal Cert.ReferenceIdeal.S32x32 .f32) (a5 : FVec Ideal Cert.ReferenceIdeal.S32 .f32)
    (a6 : FVec Ideal Cert.ReferenceIdeal.S128x64 .f32) (a7 : FVec Ideal Cert.ReferenceIdeal.S128 .f32)
    (a8 : FVec Ideal Cert.ReferenceIdeal.S128x128 .f32) (a9 : FVec Ideal Cert.ReferenceIdeal.S128 .f32)
    (a10 : FVec Ideal Cert.ReferenceIdeal.S128x32 .f32) (a11 : FVec Ideal Cert.ReferenceIdeal.S128 .f32)
    (a12 : FVec Ideal Cert.ReferenceIdeal.S8x256 .f32) (a13 : FVec Ideal Cert.ReferenceIdeal.S8 .f32)
    (b0 b1 : IVec Cert.ReferenceIdeal.S800000 32) (b3 : FVec Ideal Cert.ReferenceIdeal.S800000x1x32 .f32)
    (b4 : FVec Ideal Cert.ReferenceIdeal.S32x32 .f32) (b5 : FVec Ideal Cert.ReferenceIdeal.S32 .f32)
    (b6 : FVec Ideal Cert.ReferenceIdeal.S128x64 .f32) (b7 : FVec Ideal Cert.ReferenceIdeal.S128 .f32)
    (b8 : FVec Ideal Cert.ReferenceIdeal.S128x128 .f32) (b9 : FVec Ideal Cert.ReferenceIdeal.S128 .f32)
    (b10 : FVec Ideal Cert.ReferenceIdeal.S128x32 .f32) (b11 : FVec Ideal Cert.ReferenceIdeal.S128 .f32)
    (b12 : FVec Ideal Cert.ReferenceIdeal.S8x256 .f32) (b13 : FVec Ideal Cert.ReferenceIdeal.S8 .f32)
    (h0 : b0 = a0) (h1 : b1 = a1) (h3 : b3 = a3) (h4 : b4 = a4) (h5 : b5 = a5) (h6 : b6 = a6) (h7 : b7 = a7) (h8 : b8 = a8)
    (h9 : b9 = a9) (h10 : b10 = a10) (h11 : b11 = a11) (h12 : b12 = a12) (h13 : b13 = a13) :
    Cert.Spec.score b0 b1 b3 b4 b5 b6 b7 b8 b9 b10 b11 b12 b13 = Cert.Spec.score a0 a1 a3 a4 a5 a6 a7 a8 a9 a10 a11 a12 a13 := by
  subst h0 h1 h3 h4 h5 h6 h7 h8 h9 h10 h11 h12 h13; rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network of their argument arrays in the result buffer, and the arguments agree. -/
theorem algebraic : Cert.algebraic_KernelIdeal_ReferenceIdeal := by
  intro m ρ m' ρ' _ hagree
  refine ⟨fun c => Cert.KernelIdeal.Gen.W10 m ρ c (Proc.devRef .tc Cert.KernelIdeal.main_v56), Cert.KernelIdeal.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, _, h3, h4, h5, h6, h7, h8, h9, h10, h11, h12, h13⟩ := hagree c
  exact ((Cert.Spec.res_eq m' c).trans (score_congr _ _ _ _ _ _ _ _ _ _ _ _ _ _ _ _ _ _ _ _ _ _ _ _ _ _ h0 h1 h3 h4 h5 h6 h7 h8 h9 h10 h11 h12 h13)).trans
    ((Cert.KernelIdeal.KValue.value m ρ c).trans (kscore_eq _ _ _ _ _ _ _ _ _ _ _ _ _)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
